-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v104) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S2x1250000 : Shape := ⟨2, ![2, 1250000]⟩
abbrev S50000x64 : Shape := ⟨2, ![50000, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel

variable [Facts]

def fn {F : FTy → Type} [FloatOps F] (main_arg0 : IVec S2x1250000 32) (main_arg1 : FVec F S50000x64 .f32) : IVec S_ 1 :=
  let main_v0 : FVec F S50000x64 .f32 := Host.absf main_arg1
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  main_v3
-- ==== Kernel.lean ====
abbrev S2x1250000 : Shape := ⟨2, ![2, 1250000]⟩
abbrev S50000x64 : Shape := ⟨2, ![50000, 64]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S50000x1 : Shape := ⟨2, ![50000, 1]⟩
abbrev S1250000x64 : Shape := ⟨2, ![1250000, 64]⟩
abbrev S10000x64 : Shape := ⟨2, ![10000, 64]⟩
abbrev S10000x1 : Shape := ⟨2, ![10000, 1]⟩
abbrev S5000x64 : Shape := ⟨2, ![5000, 64]⟩
abbrev S5000x1 : Shape := ⟨2, ![5000, 1]⟩

abbrev nBuf : Space → Nat
  | .hbm => 83
  | .vmem => 52
  | .smem => 0
  | _ => 0

abbrev bufTy : (tb : Table) → Fin (tcTables nBuf tb) → BufTy
  | .hbm, ⟨0, _⟩ => ⟨S2x1250000, .i32⟩
  | .hbm, ⟨1, _⟩ => ⟨S50000x64, .f32⟩
  | .hbm, ⟨2, _⟩ => ⟨S1x1250000, .i32⟩
  | .hbm, ⟨3, _⟩ => ⟨S1250000, .i32⟩
  | .hbm, ⟨4, _⟩ => ⟨S1x1250000, .i32⟩
  | .hbm, ⟨5, _⟩ => ⟨S1250000, .i32⟩
  | .hbm, ⟨6, _⟩ => ⟨S_, .f32⟩
  | .hbm, ⟨7, _⟩ => ⟨S1250000, .f32⟩
  | .hbm, ⟨8, _⟩ => ⟨S_, .f32⟩
  | .hbm, ⟨9, _⟩ => ⟨S50000, .f32⟩
  | .hbm, ⟨10, _⟩ => ⟨S1250000x1, .i32⟩
  | .hbm, ⟨11, _⟩ => ⟨S50000, .f32⟩
  | .hbm, ⟨12, _⟩ => ⟨S_, .f32⟩
  | .hbm, ⟨13, _⟩ => ⟨S50000, .f32⟩
  | .hbm, ⟨14, _⟩ => ⟨S50000, .i1⟩
  | .hbm, ⟨15, _⟩ => ⟨S_, .f32⟩
  | .hbm, ⟨16, _⟩ => ⟨S50000, .f32⟩
  | .hbm, ⟨17, _⟩ => ⟨S50000, .f32⟩
  | .hbm, ⟨18, _⟩ => ⟨S50000, .f32⟩
  | .hbm, ⟨19, _⟩ => ⟨S_, .f32⟩
  | .hbm, ⟨20, _⟩ => ⟨S_, .f32⟩
  | .hbm, ⟨21, _⟩ => ⟨S50000, .f32⟩
  | .hbm, ⟨22, _⟩ => ⟨S50000, .f32⟩
  | .hbm, ⟨23, _⟩ => ⟨S50000x1, .f32⟩
  | .hbm, ⟨24, _⟩ => ⟨S_, .i32⟩
  | .hbm, ⟨25, _⟩ => ⟨S1250000, .i32⟩
  | .hbm, ⟨26, _⟩ => ⟨S1250000, .i1⟩
  | .hbm, ⟨27, _⟩ => ⟨S_, .i32⟩
  | .hbm, ⟨28, _⟩ => ⟨S1250000, .i32⟩
  | .hbm, ⟨29, _⟩ => ⟨S1250000, .i32⟩
  | .hbm, ⟨30, _⟩ => ⟨S1250000, .i32⟩
  | .hbm, ⟨31, _⟩ => ⟨S1250000x1, .i32⟩
  | .hbm, ⟨32, _⟩ => ⟨S1250000, .f32⟩
  | .hbm, ⟨33, _⟩ => ⟨S1250000x1, .f32⟩
  | .hbm, ⟨34, _⟩ => ⟨S_, .i32⟩
  | .hbm, ⟨35, _⟩ => ⟨S1250000, .i32⟩
  | .hbm, ⟨36, _⟩ => ⟨S1250000, .i1⟩
  | .hbm, ⟨37, _⟩ => ⟨S_, .i32⟩
  | .hbm, ⟨38, _⟩ => ⟨S1250000, .i32⟩
  | .hbm, ⟨39, _⟩ => ⟨S1250000, .i32⟩
  | .hbm, ⟨40, _⟩ => ⟨S1250000, .i32⟩
  | .hbm, ⟨41, _⟩ => ⟨S1250000x1, .i32⟩
  | .hbm, ⟨42, _⟩ => ⟨S1250000x64, .f32⟩
  | .hbm, ⟨43, _⟩ => ⟨S1250000x64, .f32⟩
  | .hbm, ⟨44, _⟩ => ⟨S_, .f32⟩
  | .hbm, ⟨45, _⟩ => ⟨S50000x64, .f32⟩
  | .hbm, ⟨46, _⟩ => ⟨S1250000x1, .i32⟩
  | .hbm, ⟨47, _⟩ => ⟨S50000x64, .f32⟩
  | .hbm, ⟨48, _⟩ => ⟨S50000x64, .f32⟩
  | .hbm, ⟨49, _⟩ => ⟨S50000x64, .f32⟩
  | .hbm, ⟨50, _⟩ => ⟨S_, .i32⟩
  | .hbm, ⟨51, _⟩ => ⟨S1250000, .i32⟩
  | .hbm, ⟨52, _⟩ => ⟨S1250000, .i1⟩
  | .hbm, ⟨53, _⟩ => ⟨S_, .i32⟩
  | .hbm, ⟨54, _⟩ => ⟨S1250000, .i32⟩
  | .hbm, ⟨55, _⟩ => ⟨S1250000, .i32⟩
  | .hbm, ⟨56, _⟩ => ⟨S1250000, .i32⟩
  | .hbm, ⟨57, _⟩ => ⟨S1250000x1, .i32⟩
  | .hbm, ⟨58, _⟩ => ⟨S1250000x64, .f32⟩
  | .hbm, ⟨59, _⟩ => ⟨S1250000x64, .f32⟩
  | .hbm, ⟨60, _⟩ => ⟨S_, .f32⟩
  | .hbm, ⟨61, _⟩ => ⟨S50000x64, .f32⟩
  | .hbm, ⟨62, _⟩ => ⟨S1250000x1, .i32⟩
  | .hbm, ⟨63, _⟩ => ⟨S50000x64, .f32⟩
  | .hbm, ⟨64, _⟩ => ⟨S50000x64, .f32⟩
  | .hbm, ⟨65, _⟩ => ⟨S50000x64, .f32⟩
  | .hbm, ⟨66, _⟩ => ⟨S_, .i32⟩
  | .hbm, ⟨67, _⟩ => ⟨S1250000, .i32⟩
  | .hbm, ⟨68, _⟩ => ⟨S1250000, .i1⟩
  | .hbm, ⟨69, _⟩ => ⟨S_, .i32⟩
  | .hbm, ⟨70, _⟩ => ⟨S1250000, .i32⟩
  | .hbm, ⟨71, _⟩ => ⟨S1250000, .i32⟩
  | .hbm, ⟨72, _⟩ => ⟨S1250000, .i32⟩
  | .hbm, ⟨73, _⟩ => ⟨S1250000x1, .i32⟩
  | .hbm, ⟨74, _⟩ => ⟨S1250000x64, .f32⟩
  | .hbm, ⟨75, _⟩ => ⟨S1250000x64, .f32⟩
  | .hbm, ⟨76, _⟩ => ⟨S_, .f32⟩
  | .hbm, ⟨77, _⟩ => ⟨S50000x64, .f32⟩
  | .hbm, ⟨78, _⟩ => ⟨S1250000x1, .i32⟩
  | .hbm, ⟨79, _⟩ => ⟨S50000x64, .f32⟩
  | .hbm, ⟨80, _⟩ => ⟨S50000x64, .f32⟩
  | .hbm, ⟨81, _⟩ => ⟨S50000x64, .f32⟩
  | .hbm, ⟨82, _⟩ => ⟨S50000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S5000x64, .f32⟩
  | .local _ .vmem, ⟨7, _⟩ => ⟨S5000x64, .f32⟩
  | .local _ .vmem, ⟨8, _⟩ => ⟨S5000x1, .f32⟩
  | .local _ .vmem, ⟨9, _⟩ => ⟨S5000x1, .f32⟩
  | .local _ .vmem, ⟨10, _⟩ => ⟨S5000x64, .f32⟩
  | .local _ .vmem, ⟨11, _⟩ => ⟨S5000x64, .f32⟩
  | .local _ .vmem, ⟨12, _⟩ => ⟨S5000x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S10000x64, .f32⟩
  | .local _ .vmem, ⟨17, _⟩ => ⟨S10000x64, .f32⟩
  | .local _ .vmem, ⟨18, _⟩ => ⟨S10000x1, .f32⟩
  | .local _ .vmem, ⟨19, _⟩ => ⟨S10000x1, .f32⟩
  | .local _ .vmem, ⟨20, _⟩ => ⟨S10000x64, .f32⟩
  | .local _ .vmem, ⟨21, _⟩ => ⟨S10000x64, .f32⟩
  | .local _ .vmem, ⟨22, _⟩ => ⟨S5000x64, .f32⟩
  | .local _ .vmem, ⟨23, _⟩ => ⟨S5000x64, .f32⟩
  | .local _ .vmem, ⟨24, _⟩ => ⟨S5000x1, .f32⟩
  | .local _ .vmem, ⟨25, _⟩ => ⟨S5000x1, .f32⟩
  | .local _ .vmem, ⟨26, _⟩ => ⟨S5000x64, .f32⟩
  | .local _ .vmem, ⟨27, _⟩ => ⟨S5000x64, .f32⟩
  | .local _ .vmem, ⟨28, _⟩ => ⟨S5000x64, .f32⟩
  | .local _ .vmem, ⟨29, _⟩ => ⟨S5000x64, .f32⟩
  | .local _ .vmem, ⟨30, _⟩ => ⟨S5000x64, .f32⟩
  | .local _ .vmem, ⟨31, _⟩ => ⟨S5000x64, .f32⟩
  | .local _ .vmem, ⟨32, _⟩ => ⟨S10000x64, .f32⟩
  | .local _ .vmem, ⟨33, _⟩ => ⟨S10000x64, .f32⟩
  | .local _ .vmem, ⟨34, _⟩ => ⟨S10000x1, .f32⟩
  | .local _ .vmem, ⟨35, _⟩ => ⟨S10000x1, .f32⟩
  | .local _ .vmem, ⟨36, _⟩ => ⟨S10000x64, .f32⟩
  | .local _ .vmem, ⟨37, _⟩ => ⟨S10000x64, .f32⟩
  | .local _ .vmem, ⟨38, _⟩ => ⟨S5000x64, .f32⟩
  | .local _ .vmem, ⟨39, _⟩ => ⟨S5000x64, .f32⟩
  | .local _ .vmem, ⟨40, _⟩ => ⟨S5000x1, .f32⟩
  | .local _ .vmem, ⟨41, _⟩ => ⟨S5000x1, .f32⟩
  | .local _ .vmem, ⟨42, _⟩ => ⟨S5000x64, .f32⟩
  | .local _ .vmem, ⟨43, _⟩ => ⟨S5000x64, .f32⟩
  | .local _ .vmem, ⟨44, _⟩ => ⟨S5000x64, .f32⟩
  | .local _ .vmem, ⟨45, _⟩ => ⟨S5000x64, .f32⟩
  | .local _ .vmem, ⟨46, _⟩ => ⟨S5000x64, .f32⟩
  | .local _ .vmem, ⟨47, _⟩ => ⟨S5000x64, .f32⟩
  | .local _ .vmem, ⟨48, _⟩ => ⟨S10000x64, .f32⟩
  | .local _ .vmem, ⟨49, _⟩ => ⟨S10000x64, .f32⟩
  | .local _ .vmem, ⟨50, _⟩ => ⟨S10000x64, .f32⟩
  | .local _ .vmem, ⟨51, _⟩ => ⟨S10000x64, .f32⟩
  | _, _ => ⟨S2x1250000, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_call0_v0 : Ref sig .tc := ⟨.hbm, 20, rfl⟩
abbrev main_call0_v1 : Ref sig .tc := ⟨.hbm, 21, rfl⟩
abbrev main_v13 : Ref sig .tc := ⟨.hbm, 22, rfl⟩
abbrev main_v14 : Ref sig .tc := ⟨.hbm, 23, rfl⟩
abbrev main_c : Ref sig .tc := ⟨.hbm, 24, rfl⟩
abbrev main_v15 : Ref sig .tc := ⟨.hbm, 25, rfl⟩
abbrev main_v16 : Ref sig .tc := ⟨.hbm, 26, rfl⟩
abbrev main_c_4 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_c_5 : Ref sig .tc := ⟨.hbm, 34, rfl⟩
abbrev main_v23 : Ref sig .tc := ⟨.hbm, 35, rfl⟩
abbrev main_v24 : Ref sig .tc := ⟨.hbm, 36, rfl⟩
abbrev main_c_6 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_7 : Ref sig .tc := ⟨.hbm, 44, rfl⟩
abbrev main_v31 : Ref sig .tc := ⟨.hbm, 45, rfl⟩
abbrev main_v32 : Ref sig .tc := ⟨.hbm, 46, rfl⟩
abbrev main_v33 : Ref sig .tc := ⟨.hbm, 47, rfl⟩
abbrev main_v34_0 : Ref sig .tc := ⟨.hbm, 48, rfl⟩
abbrev main_v34_1 : Ref sig .tc := ⟨.hbm, 49, rfl⟩
abbrev main_c_8 : Ref sig .tc := ⟨.hbm, 50, rfl⟩
abbrev main_v35 : Ref sig .tc := ⟨.hbm, 51, rfl⟩
abbrev main_v36 : Ref sig .tc := ⟨.hbm, 52, rfl⟩
abbrev main_c_9 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_cst_10 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46_0 : Ref sig .tc := ⟨.hbm, 64, rfl⟩
abbrev main_v46_1 : Ref sig .tc := ⟨.hbm, 65, rfl⟩
abbrev main_c_11 : Ref sig .tc := ⟨.hbm, 66, rfl⟩
abbrev main_v47 : Ref sig .tc := ⟨.hbm, 67, rfl⟩
abbrev main_v48 : Ref sig .tc := ⟨.hbm, 68, rfl⟩
abbrev main_c_12 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_cst_13 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58_0 : Ref sig .tc := ⟨.hbm, 80, rfl⟩
abbrev main_v58_1 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc1_stg3_0 : Ref sig .tc := ⟨.vmem, 12, rfl⟩
abbrev cc1_stg3_1 : Ref sig .tc := ⟨.vmem, 13, rfl⟩
abbrev cc1_stg4_0 : Ref sig .tc := ⟨.vmem, 14, rfl⟩
abbrev cc1_stg4_1 : Ref sig .tc := ⟨.vmem, 15, rfl⟩
abbrev cc2_stg0_0 : Ref sig .tc := ⟨.vmem, 16, rfl⟩
abbrev cc2_stg0_1 : Ref sig .tc := ⟨.vmem, 17, rfl⟩
abbrev cc2_stg1_0 : Ref sig .tc := ⟨.vmem, 18, rfl⟩
abbrev cc2_stg1_1 : Ref sig .tc := ⟨.vmem, 19, rfl⟩
abbrev cc2_stg2_0 : Ref sig .tc := ⟨.vmem, 20, rfl⟩
abbrev cc2_stg2_1 : Ref sig .tc := ⟨.vmem, 21, rfl⟩
abbrev cc3_stg0_0 : Ref sig .tc := ⟨.vmem, 22, rfl⟩
abbrev cc3_stg0_1 : Ref sig .tc := ⟨.vmem, 23, rfl⟩
abbrev cc3_stg1_0 : Ref sig .tc := ⟨.vmem, 24, rfl⟩
abbrev cc3_stg1_1 : Ref sig .tc := ⟨.vmem, 25, rfl⟩
abbrev cc3_stg2_0 : Ref sig .tc := ⟨.vmem, 26, rfl⟩
abbrev cc3_stg2_1 : Ref sig .tc := ⟨.vmem, 27, rfl⟩
abbrev cc3_stg3_0 : Ref sig .tc := ⟨.vmem, 28, rfl⟩
abbrev cc3_stg3_1 : Ref sig .tc := ⟨.vmem, 29, rfl⟩
abbrev cc3_stg4_0 : Ref sig .tc := ⟨.vmem, 30, rfl⟩
abbrev cc3_stg4_1 : Ref sig .tc := ⟨.vmem, 31, rfl⟩
abbrev cc4_stg0_0 : Ref sig .tc := ⟨.vmem, 32, rfl⟩
abbrev cc4_stg0_1 : Ref sig .tc := ⟨.vmem, 33, rfl⟩
abbrev cc4_stg1_0 : Ref sig .tc := ⟨.vmem, 34, rfl⟩
abbrev cc4_stg1_1 : Ref sig .tc := ⟨.vmem, 35, rfl⟩
abbrev cc4_stg2_0 : Ref sig .tc := ⟨.vmem, 36, rfl⟩
abbrev cc4_stg2_1 : Ref sig .tc := ⟨.vmem, 37, rfl⟩
abbrev cc5_stg0_0 : Ref sig .tc := ⟨.vmem, 38, rfl⟩
abbrev cc5_stg0_1 : Ref sig .tc := ⟨.vmem, 39, rfl⟩
abbrev cc5_stg1_0 : Ref sig .tc := ⟨.vmem, 40, rfl⟩
abbrev cc5_stg1_1 : Ref sig .tc := ⟨.vmem, 41, rfl⟩
abbrev cc5_stg2_0 : Ref sig .tc := ⟨.vmem, 42, rfl⟩
abbrev cc5_stg2_1 : Ref sig .tc := ⟨.vmem, 43, rfl⟩
abbrev cc5_stg3_0 : Ref sig .tc := ⟨.vmem, 44, rfl⟩
abbrev cc5_stg3_1 : Ref sig .tc := ⟨.vmem, 45, rfl⟩
abbrev cc5_stg4_0 : Ref sig .tc := ⟨.vmem, 46, rfl⟩
abbrev cc5_stg4_1 : Ref sig .tc := ⟨.vmem, 47, rfl⟩
abbrev cc6_stg0_0 : Ref sig .tc := ⟨.vmem, 48, rfl⟩
abbrev cc6_stg0_1 : Ref sig .tc := ⟨.vmem, 49, rfl⟩
abbrev cc6_stg1_0 : Ref sig .tc := ⟨.vmem, 50, rfl⟩
abbrev cc6_stg1_1 : Ref sig .tc := ⟨.vmem, 51, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc1_sem3_0 : DmaSem sig := 12
abbrev cc1_sem3_1 : DmaSem sig := 13
abbrev cc1_sem4_0 : DmaSem sig := 14
abbrev cc1_sem4_1 : DmaSem sig := 15
abbrev cc2_sem0_0 : DmaSem sig := 16
abbrev cc2_sem0_1 : DmaSem sig := 17
abbrev cc2_sem1_0 : DmaSem sig := 18
abbrev cc2_sem1_1 : DmaSem sig := 19
abbrev cc2_sem2_0 : DmaSem sig := 20
abbrev cc2_sem2_1 : DmaSem sig := 21
abbrev cc3_sem0_0 : DmaSem sig := 22
abbrev cc3_sem0_1 : DmaSem sig := 23
abbrev cc3_sem1_0 : DmaSem sig := 24
abbrev cc3_sem1_1 : DmaSem sig := 25
abbrev cc3_sem2_0 : DmaSem sig := 26
abbrev cc3_sem2_1 : DmaSem sig := 27
abbrev cc3_sem3_0 : DmaSem sig := 28
abbrev cc3_sem3_1 : DmaSem sig := 29
abbrev cc3_sem4_0 : DmaSem sig := 30
abbrev cc3_sem4_1 : DmaSem sig := 31
abbrev cc4_sem0_0 : DmaSem sig := 32
abbrev cc4_sem0_1 : DmaSem sig := 33
abbrev cc4_sem1_0 : DmaSem sig := 34
abbrev cc4_sem1_1 : DmaSem sig := 35
abbrev cc4_sem2_0 : DmaSem sig := 36
abbrev cc4_sem2_1 : DmaSem sig := 37
abbrev cc5_sem0_0 : DmaSem sig := 38
abbrev cc5_sem0_1 : DmaSem sig := 39
abbrev cc5_sem1_0 : DmaSem sig := 40
abbrev cc5_sem1_1 : DmaSem sig := 41
abbrev cc5_sem2_0 : DmaSem sig := 42
abbrev cc5_sem2_1 : DmaSem sig := 43
abbrev cc5_sem3_0 : DmaSem sig := 44
abbrev cc5_sem3_1 : DmaSem sig := 45
abbrev cc5_sem4_0 : DmaSem sig := 46
abbrev cc5_sem4_1 : DmaSem sig := 47
abbrev cc6_sem0_0 : DmaSem sig := 48
abbrev cc6_sem0_1 : DmaSem sig := 49
abbrev cc6_sem1_0 : DmaSem sig := 50
abbrev cc6_sem1_1 : DmaSem sig := 51

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S5000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S5000x64 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S5000x64 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![125], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S10000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S5000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 2 → Memref sig .tc .vmem S5000x64 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev stage3_4 : Fin 2 → Memref sig .tc .vmem S5000x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![125], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S10000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S5000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S5000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 2 → Memref sig .tc .vmem S5000x64 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev stage5_4 : Fin 2 → Memref sig .tc .vmem S5000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![5], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S50000_S50000x1_0 : S50000.BroadcastsInDim S50000x1 (![0] : Fin 1 → Fin S50000x1.rank)
  inb_S10000x64_S10000x64_0_0 : ∀ a, (![0, 0] : Fin 2 → Nat) a + S10000x64.size a ≤ S10000x64.size a
  h_S10000x64 : 0 < S10000x64.numel
  shapeCasts_S10000x64_S10000x64 : S10000x64.ShapeCasts S10000x64
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S50000x64 : S_.BroadcastsInDim S50000x64 (![] : Fin 0 → Fin S50000x64.rank)
  inb_S5000x64_S5000x64_0_0 : ∀ a, (![0, 0] : Fin 2 → Nat) a + S5000x64.size a ≤ S5000x64.size a
  h_S5000x64 : 0 < S5000x64.numel
  shapeCasts_S5000x64_S5000x64 : S5000x64.ShapeCasts S5000x64
  inb_S5000x1_S5000x1_0_0 : ∀ a, (![0, 0] : Fin 2 → Nat) a + S5000x1.size a ≤ S5000x1.size a
  h_S5000x1 : 0 < S5000x1.numel
  shapeCasts_S5000x1_S5000x1 : S5000x1.ShapeCasts S5000x1
  broadcasts_S5000x1_S5000x64 : S5000x1.Broadcasts S5000x64
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S1250000x64.size a
  hwx0_0 : ∀ i : grid0.Coords, EltTy.bits .f32 = 32 ∨ (Rect.block (s := S1250000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S1250000x1.size a
  hwx0_1 : ∀ i : grid0.Coords, EltTy.bits .f32 = 32 ∨ (Rect.block (s := S1250000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S1250000x64.size a
  hwx0_2 : ∀ i : grid0.Coords, EltTy.bits .f32 = 32 ∨ (Rect.block (s := S1250000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S50000x64.size a
  hwx1_0 : ∀ i : grid1.Coords, EltTy.bits .f32 = 32 ∨ (Rect.block (s := S50000x64) S5000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S5000x1.size a ≤ S50000x1.size a
  hwx1_1 : ∀ i : grid1.Coords, EltTy.bits .f32 = 32 ∨ (Rect.block (s := S50000x1) S5000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S50000x64.size a
  hwx1_2 : ∀ i : grid1.Coords, EltTy.bits .f32 = 32 ∨ (Rect.block (s := S50000x64) S5000x64.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S5000x64.size a ≤ S50000x64.size a
  hwx1_3 : ∀ i : grid1.Coords, EltTy.bits .f32 = 32 ∨ (Rect.block (s := S50000x64) S5000x64.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S5000x64.size a ≤ S50000x64.size a
  hwx1_4 : ∀ i : grid1.Coords, EltTy.bits .f32 = 32 ∨ (Rect.block (s := S50000x64) S5000x64.size (cc1_transform_4 i) (hinb1_4 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S1250000x64.size a
  hwx2_0 : ∀ i : grid2.Coords, EltTy.bits .f32 = 32 ∨ (Rect.block (s := S1250000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S1250000x1.size a
  hwx2_1 : ∀ i : grid2.Coords, EltTy.bits .f32 = 32 ∨ (Rect.block (s := S1250000x1) S10000x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x64.size a ≤ S1250000x64.size a
  hwx2_2 : ∀ i : grid2.Coords, EltTy.bits .f32 = 32 ∨ (Rect.block (s := S1250000x64) S10000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S50000x64.size a
  hwx3_0 : ∀ i : grid3.Coords, EltTy.bits .f32 = 32 ∨ (Rect.block (s := S50000x64) S5000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S5000x1.size a ≤ S50000x1.size a
  hwx3_1 : ∀ i : grid3.Coords, EltTy.bits .f32 = 32 ∨ (Rect.block (s := S50000x1) S5000x1.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S50000x64.size a
  hwx3_2 : ∀ i : grid3.Coords, EltTy.bits .f32 = 32 ∨ (Rect.block (s := S50000x64) S5000x64.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x64.size a ≤ S50000x64.size a
  hwx3_3 : ∀ i : grid3.Coords, EltTy.bits .f32 = 32 ∨ (Rect.block (s := S50000x64) S5000x64.size (cc3_transform_3 i) (hinb3_3 i)).WholeWords (EltTy.packing .f32)
  hstage3_4 : ∀ j, (stage3_4 j).IsWhole
  nbuf3_4 : grid3.bufCount reads3_4 false = 2
  hreads3_4 : ∀ i i' : grid3.Coords, (∀ a, reads3_4 a = true → i a = i' a) → cc3_transform_4 i = cc3_transform_4 i'
  hinb3_4 : ∀ (i : grid3.Coords) a, (cc3_transform_4 i a + 1) * S5000x64.size a ≤ S50000x64.size a
  hwx3_4 : ∀ i : grid3.Coords, EltTy.bits .f32 = 32 ∨ (Rect.block (s := S50000x64) S5000x64.size (cc3_transform_4 i) (hinb3_4 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x64.size a ≤ S1250000x64.size a
  hwx4_0 : ∀ i : grid4.Coords, EltTy.bits .f32 = 32 ∨ (Rect.block (s := S1250000x64) S10000x64.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S10000x1.size a ≤ S1250000x1.size a
  hwx4_1 : ∀ i : grid4.Coords, EltTy.bits .f32 = 32 ∨ (Rect.block (s := S1250000x1) S10000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S1250000x64.size a
  hwx4_2 : ∀ i : grid4.Coords, EltTy.bits .f32 = 32 ∨ (Rect.block (s := S1250000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x64.size a ≤ S50000x64.size a
  hwx5_0 : ∀ i : grid5.Coords, EltTy.bits .f32 = 32 ∨ (Rect.block (s := S50000x64) S5000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S5000x1.size a ≤ S50000x1.size a
  hwx5_1 : ∀ i : grid5.Coords, EltTy.bits .f32 = 32 ∨ (Rect.block (s := S50000x1) S5000x1.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x64.size a ≤ S50000x64.size a
  hwx5_2 : ∀ i : grid5.Coords, EltTy.bits .f32 = 32 ∨ (Rect.block (s := S50000x64) S5000x64.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S5000x64.size a ≤ S50000x64.size a
  hwx5_3 : ∀ i : grid5.Coords, EltTy.bits .f32 = 32 ∨ (Rect.block (s := S50000x64) S5000x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S5000x64.size a ≤ S50000x64.size a
  hwx5_4 : ∀ i : grid5.Coords, EltTy.bits .f32 = 32 ∨ (Rect.block (s := S50000x64) S5000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S50000x64.size a
  hwx6_0 : ∀ i : grid6.Coords, EltTy.bits .f32 = 32 ∨ (Rect.block (s := S50000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S50000x64.size a
  hwx6_1 : ∀ i : grid6.Coords, EltTy.bits .f32 = 32 ∨ (Rect.block (s := S50000x64) S10000x64.size (cc6_transform_1 i) (hinb6_1 i)).WholeWords (EltTy.packing .f32)

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

abbrev win0_0 : Pipeline.Window sig grid0 :=
  Pipeline.Window.ofSpec (Memref.whole main_v29) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v22) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v14) S5000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg1) S5000x64.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v34_0) S5000x64.size cc1_transform_3 reads1_3 true false 2 stage1_3 sem1_3
    hrank1 hreads1_3 hinb1_3 nbuf1_3 (Memref.isWhole_whole _) hwx1_3 hstage1_3

abbrev win1_4 : Pipeline.Window sig grid1 :=
  Pipeline.Window.ofSpec (Memref.whole main_v34_1) S5000x64.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

abbrev win2_0 : Pipeline.Window sig grid2 :=
  Pipeline.Window.ofSpec (Memref.whole main_v41) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v22) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v42) S10000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v14) S5000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v34_1) S5000x64.size cc3_transform_2 reads3_2 false false 2 stage3_2 sem3_2
    hrank3 hreads3_2 hinb3_2 nbuf3_2 (Memref.isWhole_whole _) hwx3_2 hstage3_2

abbrev win3_3 : Pipeline.Window sig grid3 :=
  Pipeline.Window.ofSpec (Memref.whole main_v46_0) S5000x64.size cc3_transform_3 reads3_3 true false 2 stage3_3 sem3_3
    hrank3 hreads3_3 hinb3_3 nbuf3_3 (Memref.isWhole_whole _) hwx3_3 hstage3_3

abbrev win3_4 : Pipeline.Window sig grid3 :=
  Pipeline.Window.ofSpec (Memref.whole main_v46_1) S5000x64.size cc3_transform_4 reads3_4 true false 2 stage3_4 sem3_4
    hrank3 hreads3_4 hinb3_4 nbuf3_4 (Memref.isWhole_whole _) hwx3_4 hstage3_4

abbrev win3 : Fin 5 → Pipeline.Window sig grid3 := fun | 0 => win3_0 | 1 => win3_1 | 2 => win3_2 | 3 => win3_3 | 4 => win3_4 | ⟨_ + 5, h⟩ => absurd h (Nat.not_lt.2 (Nat.le_add_left _ _))
abbrev spec3 : Fin 5 → Pipeline.WinSpec sig grid3.rank := fun w => (win3 w).toWinSpec

abbrev win4_0 : Pipeline.Window sig grid4 :=
  Pipeline.Window.ofSpec (Memref.whole main_v53) S10000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v22) S10000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v14) S5000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v46_1) S5000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_v58_0) S5000x64.size cc5_transform_3 reads5_3 true false 2 stage5_3 sem5_3
    hrank5 hreads5_3 hinb5_3 nbuf5_3 (Memref.isWhole_whole _) hwx5_3 hstage5_3

abbrev win5_4 : Pipeline.Window sig grid5 :=
  Pipeline.Window.ofSpec (Memref.whole main_v58_1) S5000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v58_1) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v59) S10000x64.size cc6_transform_1 reads6_1 true false 2 stage6_1 sem6_1
    hrank6 hreads6_1 hinb6_1 nbuf6_1 (Memref.isWhole_whole _) hwx6_1 hstage6_1

abbrev win6 : Fin 2 → Pipeline.Window sig grid6 := fun | 0 => win6_0 | 1 => win6_1 | ⟨_ + 2, h⟩ => absurd h (Nat.not_lt.2 (Nat.le_add_left _ _))
abbrev spec6 : Fin 2 → Pipeline.WinSpec sig grid6.rank := fun w => (win6 w).toWinSpec

class Facts : Prop extends Facts₀ where

variable [Facts]
-- ==== ReferenceIdeal.lean ====
abbrev S2x1250000 : Shape := ⟨2, ![2, 1250000]⟩
abbrev S50000x64 : Shape := ⟨2, ![50000, 64]⟩
abbrev S1x1250000 : Shape := ⟨2, ![1, 1250000]⟩
abbrev S1250000 : Shape := ⟨1, ![1250000]⟩
abbrev S_ : Shape := ⟨0, ![]⟩
abbrev S50000 : Shape := ⟨1, ![50000]⟩
abbrev S1250000x1 : Shape := ⟨2, ![1250000, 1]⟩
abbrev S1250000x64 : Shape := ⟨2, ![1250000, 64]⟩
abbrev S50000x1 : Shape := ⟨2, ![50000, 1]⟩

abbrev nBuf : Space → Nat
  | .hbm => 142
  | .vmem => 0
  | .smem => 0
  | _ => 0

abbrev hbmTy0_0 (i : Nat) : BufTy := match i % 128 with
  | 0 => ⟨S2x1250000, .i32⟩
  | 1 => ⟨S50000x64, .f32⟩
  | 2 => ⟨S1x1250000, .i32⟩
  | 3 => ⟨S1250000, .i32⟩
  | 4 => ⟨S1x1250000, .i32⟩
  | 5 => ⟨S1250000, .i32⟩
  | 6 => ⟨S_, .f32⟩
  | 7 => ⟨S1250000, .f32⟩
  | 8 => ⟨S_, .f32⟩
  | 9 => ⟨S50000, .f32⟩
  | 10 => ⟨S1250000x1, .i32⟩
  | 11 => ⟨S50000, .f32⟩
  | 12 => ⟨S_, .f32⟩
  | 13 => ⟨S50000, .f32⟩
  | 14 => ⟨S50000, .i1⟩
  | 15 => ⟨S_, .f32⟩
  | 16 => ⟨S50000, .f32⟩
  | 17 => ⟨S50000, .f32⟩
  | 18 => ⟨S50000, .f32⟩
  | 19 => ⟨S_, .f32⟩
  | 20 => ⟨S50000, .f32⟩
  | 21 => ⟨S50000, .i1⟩
  | 22 => ⟨S_, .f32⟩
  | 23 => ⟨S_, .f32⟩
  | 24 => ⟨S50000, .f32⟩
  | 25 => ⟨S50000, .f32⟩
  | 26 => ⟨S50000, .f32⟩
  | 27 => ⟨S50000, .f32⟩
  | 28 => ⟨S50000, .f32⟩
  | 29 => ⟨S_, .f32⟩
  | 30 => ⟨S50000, .f32⟩
  | 31 => ⟨S50000, .f32⟩
  | 32 => ⟨S50000, .f32⟩
  | 33 => ⟨S_, .f32⟩
  | 34 => ⟨S50000, .f32⟩
  | 35 => ⟨S50000, .f32⟩
  | 36 => ⟨S50000, .f32⟩
  | 37 => ⟨S_, .f32⟩
  | 38 => ⟨S_, .f32⟩
  | 39 => ⟨S50000, .f32⟩
  | 40 => ⟨S50000, .f32⟩
  | 41 => ⟨S_, .f32⟩
  | 42 => ⟨S50000, .f32⟩
  | 43 => ⟨S50000, .i1⟩
  | 44 => ⟨S_, .f32⟩
  | 45 => ⟨S50000, .f32⟩
  | 46 => ⟨S50000, .f32⟩
  | 47 => ⟨S50000, .f32⟩
  | 48 => ⟨S_, .f32⟩
  | 49 => ⟨S_, .f32⟩
  | 50 => ⟨S50000, .f32⟩
  | 51 => ⟨S50000, .f32⟩
  | 52 => ⟨S_, .i32⟩
  | 53 => ⟨S1250000, .i32⟩
  | 54 => ⟨S1250000, .i1⟩
  | 55 => ⟨S_, .i32⟩
  | 56 => ⟨S1250000, .i32⟩
  | 57 => ⟨S1250000, .i32⟩
  | 58 => ⟨S1250000, .i32⟩
  | 59 => ⟨S1250000x1, .i32⟩
  | 60 => ⟨S1250000, .f32⟩
  | 61 => ⟨S1250000x1, .f32⟩
  | 62 => ⟨S_, .i32⟩
  | 63 => ⟨S1250000, .i32⟩
  | 64 => ⟨S1250000, .i1⟩
  | 65 => ⟨S_, .i32⟩
  | 66 => ⟨S1250000, .i32⟩
  | 67 => ⟨S1250000, .i32⟩
  | 68 => ⟨S1250000, .i32⟩
  | 69 => ⟨S1250000x1, .i32⟩
  | 70 => ⟨S1250000x64, .f32⟩
  | 71 => ⟨S1250000x64, .f32⟩
  | 72 => ⟨S1250000x64, .f32⟩
  | 73 => ⟨S_, .f32⟩
  | 74 => ⟨S50000x64, .f32⟩
  | 75 => ⟨S1250000x1, .i32⟩
  | 76 => ⟨S50000x64, .f32⟩
  | 77 => ⟨S50000x1, .f32⟩
  | 78 => ⟨S50000x64, .f32⟩
  | 79 => ⟨S50000x64, .f32⟩
  | 80 => ⟨S50000x64, .f32⟩
  | 81 => ⟨S_, .i32⟩
  | 82 => ⟨S1250000, .i32⟩
  | 83 => ⟨S1250000, .i1⟩
  | 84 => ⟨S_, .i32⟩
  | 85 => ⟨S1250000, .i32⟩
  | 86 => ⟨S1250000, .i32⟩
  | 87 => ⟨S1250000, .i32⟩
  | 88 => ⟨S1250000x1, .i32⟩
  | 89 => ⟨S1250000, .f32⟩
  | 90 => ⟨S1250000x1, .f32⟩
  | 91 => ⟨S_, .i32⟩
  | 92 => ⟨S1250000, .i32⟩
  | 93 => ⟨S1250000, .i1⟩
  | 94 => ⟨S_, .i32⟩
  | 95 => ⟨S1250000, .i32⟩
  | 96 => ⟨S1250000, .i32⟩
  | 97 => ⟨S1250000, .i32⟩
  | 98 => ⟨S1250000x1, .i32⟩
  | 99 => ⟨S1250000x64, .f32⟩
  | 100 => ⟨S1250000x64, .f32⟩
  | 101 => ⟨S1250000x64, .f32⟩
  | 102 => ⟨S_, .f32⟩
  | 103 => ⟨S50000x64, .f32⟩
  | 104 => ⟨S1250000x1, .i32⟩
  | 105 => ⟨S50000x64, .f32⟩
  | 106 => ⟨S50000x1, .f32⟩
  | 107 => ⟨S50000x64, .f32⟩
  | 108 => ⟨S50000x64, .f32⟩
  | 109 => ⟨S50000x64, .f32⟩
  | 110 => ⟨S_, .i32⟩
  | 111 => ⟨S1250000, .i32⟩
  | 112 => ⟨S1250000, .i1⟩
  | 113 => ⟨S_, .i32⟩
  | 114 => ⟨S1250000, .i32⟩
  | 115 => ⟨S1250000, .i32⟩
  | 116 => ⟨S1250000, .i32⟩
  | 117 => ⟨S1250000x1, .i32⟩
  | 118 => ⟨S1250000, .f32⟩
  | 119 => ⟨S1250000x1, .f32⟩
  | 120 => ⟨S_, .i32⟩
  | 121 => ⟨S1250000, .i32⟩
  | 122 => ⟨S1250000, .i1⟩
  | 123 => ⟨S_, .i32⟩
  | 124 => ⟨S1250000, .i32⟩
  | 125 => ⟨S1250000, .i32⟩
  | 126 => ⟨S1250000, .i32⟩
  | 127 => ⟨S1250000x1, .i32⟩
  | _ => ⟨S2x1250000, .i32⟩

abbrev hbmTy0_1 (i : Nat) : BufTy := match i % 128 with
  | 0 => ⟨S1250000x64, .f32⟩
  | 1 => ⟨S1250000x64, .f32⟩
  | 2 => ⟨S1250000x64, .f32⟩
  | 3 => ⟨S_, .f32⟩
  | 4 => ⟨S50000x64, .f32⟩
  | 5 => ⟨S1250000x1, .i32⟩
  | 6 => ⟨S50000x64, .f32⟩
  | 7 => ⟨S50000x1, .f32⟩
  | 8 => ⟨S50000x64, .f32⟩
  | 9 => ⟨S50000x64, .f32⟩
  | 10 => ⟨S50000x64, .f32⟩
  | 11 => ⟨S_, .f32⟩
  | 12 => ⟨S50000x64, .f32⟩
  | 13 => ⟨S50000x64, .f32⟩
  | _ => ⟨S2x1250000, .i32⟩

abbrev hbmTy (i : Nat) : BufTy := match i / 128 with
  | 0 => hbmTy0_0 i
  | 1 => hbmTy0_1 i
  | _ => ⟨S2x1250000, .i32⟩

abbrev bufTy : (tb : Table) → Fin (tcTables nBuf tb) → BufTy
  | .hbm, ⟨i, _⟩ => hbmTy i
  | _, _ => ⟨S2x1250000, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_cst_4 : Ref sig .tc := ⟨.hbm, 22, rfl⟩
abbrev main_cst_5 : Ref sig .tc := ⟨.hbm, 23, rfl⟩
abbrev main_call0_v0 : Ref sig .tc := ⟨.hbm, 24, rfl⟩
abbrev main_call0_v1 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_6 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_cst_7 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_8 : Ref sig .tc := ⟨.hbm, 37, rfl⟩
abbrev main_call1_v0 : Ref sig .tc := ⟨.hbm, 38, rfl⟩
abbrev main_call1_v1 : Ref sig .tc := ⟨.hbm, 39, rfl⟩
abbrev main_v24 : Ref sig .tc := ⟨.hbm, 40, rfl⟩
abbrev main_cst_9 : Ref sig .tc := ⟨.hbm, 41, rfl⟩
abbrev main_v25 : Ref sig .tc := ⟨.hbm, 42, rfl⟩
abbrev main_v26 : Ref sig .tc := ⟨.hbm, 43, rfl⟩
abbrev main_cst_10 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_cst_11 : Ref sig .tc := ⟨.hbm, 48, rfl⟩
abbrev main_call2_v0 : Ref sig .tc := ⟨.hbm, 49, rfl⟩
abbrev main_call2_v1 : Ref sig .tc := ⟨.hbm, 50, rfl⟩
abbrev main_v30 : Ref sig .tc := ⟨.hbm, 51, rfl⟩
abbrev main_c : Ref sig .tc := ⟨.hbm, 52, rfl⟩
abbrev main_v31 : Ref sig .tc := ⟨.hbm, 53, rfl⟩
abbrev main_v32 : Ref sig .tc := ⟨.hbm, 54, rfl⟩
abbrev main_c_12 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_c_13 : Ref sig .tc := ⟨.hbm, 62, rfl⟩
abbrev main_v39 : Ref sig .tc := ⟨.hbm, 63, rfl⟩
abbrev main_v40 : Ref sig .tc := ⟨.hbm, 64, rfl⟩
abbrev main_c_14 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_15 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_c_16 : Ref sig .tc := ⟨.hbm, 81, rfl⟩
abbrev main_v55 : Ref sig .tc := ⟨.hbm, 82, rfl⟩
abbrev main_v56 : Ref sig .tc := ⟨.hbm, 83, rfl⟩
abbrev main_c_17 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_c_18 : Ref sig .tc := ⟨.hbm, 91, rfl⟩
abbrev main_v63 : Ref sig .tc := ⟨.hbm, 92, rfl⟩
abbrev main_v64 : Ref sig .tc := ⟨.hbm, 93, rfl⟩
abbrev main_c_19 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_20 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_21 : Ref sig .tc := ⟨.hbm, 110, rfl⟩
abbrev main_v79 : Ref sig .tc := ⟨.hbm, 111, rfl⟩
abbrev main_v80 : Ref sig .tc := ⟨.hbm, 112, rfl⟩
abbrev main_c_22 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_c_23 : Ref sig .tc := ⟨.hbm, 120, rfl⟩
abbrev main_v87 : Ref sig .tc := ⟨.hbm, 121, rfl⟩
abbrev main_v88 : Ref sig .tc := ⟨.hbm, 122, rfl⟩
abbrev main_c_24 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_cst_25 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_26 : Ref sig .tc := ⟨.hbm, 139, rfl⟩
abbrev main_v103 : Ref sig .tc := ⟨.hbm, 140, rfl⟩
abbrev main_v104 : Ref sig .tc := ⟨.hbm, 141, rfl⟩

abbrev nD : Nat := 1
abbrev τ : Topo := Topo.v7x

variable {F : FTy → Type} [FloatOps F]

class Facts₀ : Prop where
  slices_S2x1250000_S1x1250000_0_0 : S2x1250000.Slices ![0, 0] S1x1250000
  shapeCasts_S1x1250000_S1250000 : S1x1250000.ShapeCasts S1250000
  slices_S2x1250000_S1x1250000_1_0 : S2x1250000.Slices ![1, 0] S1x1250000
  bcast_S_S1250000 : S_.BroadcastsInDim S1250000 (![] : Fin 0 → Fin S1250000.rank)
  bcast_S_S50000 : S_.BroadcastsInDim S50000 (![] : Fin 0 → Fin S50000.rank)
  bcast_S1250000_S1250000x1_0 : S1250000.BroadcastsInDim S1250000x1 (![0] : Fin 1 → Fin S1250000x1.rank)
  bcast_S1250000x1_S1250000x64_0_1 : S1250000x1.BroadcastsInDim S1250000x64 (![0, 1] : Fin 2 → Fin S1250000x64.rank)
  bcast_S_S50000x64 : S_.BroadcastsInDim S50000x64 (![] : Fin 0 → Fin S50000x64.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  scatter_S50000_S1250000x1_S1250000_n_0_0_1_wf : ScatterDims.WF S50000 S1250000x1 S1250000 [] [0] [0] 1
  gather_S50000_S1250000x1_S1250000_n_0_n_n_0_1_1_wf : GatherDims.WF S50000 S1250000x1 S1250000 [] [0] [] [0] [] 1 ![1]
  gather_S50000x64_S1250000x1_S1250000x64_1_0_n_n_0_1_164_wf : GatherDims.WF S50000x64 S1250000x1 S1250000x64 [1] [0] [] [0] [] 1 ![1, 64]
  scatter_S50000x64_S1250000x1_S1250000x64_1_0_0_1_wf : ScatterDims.WF S50000x64 S1250000x1 S1250000x64 [1] [0] [0] 1

variable [Facts₀]

def scatter_S50000_S1250000x1_S1250000_n_0_0_1 : ScatterDims S50000 S1250000x1 S1250000 where
  updateWindowDims := []
  insertedWindowDims := [0]
  scatterDimsToOperandDims := [0]
  indexVectorDim := 1
  wf := scatter_S50000_S1250000x1_S1250000_n_0_0_1_wf
def gather_S50000_S1250000x1_S1250000_n_0_n_n_0_1_1 : GatherDims S50000 S1250000x1 S1250000 where
  offsetDims := []
  collapsedSliceDims := [0]
  operandBatchingDims := []
  startIndicesBatchingDims := []
  startIndexMap := [0]
  indexVectorDim := 1
  sliceSizes := ![1]
  wf := gather_S50000_S1250000x1_S1250000_n_0_n_n_0_1_1_wf
def gather_S50000x64_S1250000x1_S1250000x64_1_0_n_n_0_1_164 : GatherDims S50000x64 S1250000x1 S1250000x64 where
  offsetDims := [1]
  collapsedSliceDims := [0]
  operandBatchingDims := []
  startIndicesBatchingDims := []
  startIndexMap := [0]
  indexVectorDim := 1
  sliceSizes := ![1, 64]
  wf := gather_S50000x64_S1250000x1_S1250000x64_1_0_n_n_0_1_164_wf
def scatter_S50000x64_S1250000x1_S1250000x64_1_0_0_1 : ScatterDims S50000x64 S1250000x1 S1250000x64 where
  updateWindowDims := [1]
  insertedWindowDims := [0]
  scatterDimsToOperandDims := [0]
  indexVectorDim := 1
  wf := scatter_S50000x64_S1250000x1_S1250000x64_1_0_0_1_wf

class Facts : Prop extends Facts₀ where

variable [Facts]
-- ==== Proof.KernelRun.lean ====
/-
  The idealized kernel's run, with its RESULT named.

  The program is fifteen segments — host stretches and seven regions — and the contents of every buffer at each segment
  boundary are a fold from the launch memory (`Gen.W0` … `Gen.W15`). The launch theorem for such a chain ends with
  every buffer outside the regions' scratch at the last boundary's contents; read against the final state at the result
  buffer and at the two argument buffers this says: every weakly fair execution terminates, nothing faulting, with the
  result at `W15` of the result buffer and the arguments as launched. (The frame claim is the same statement without
  the result; what `W15` holds at the result buffer is the subject of the modules that follow.)
-/
import proofs.«175120_j9380208574850_1_alg».proof.Proof.Gen.KernelIdeal.Frame

set_option maxRecDepth 16384

noncomputable section

namespace Cert.KernelIdeal.Result

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, with the result buffer at the last boundary's
    contents and the argument arrays as launched. -/
theorem run : θ_run defs (onTc (τ := τ) (main (F := F))) ⟨m, fun _ => 0, ρ⟩ (fun r => ∀ c : Dev nD,
      r.2.mem ((c.tc : Thread nD τ).loc main_v59) = W15 m ρ c (Proc.devRef .tc main_v59)
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W15 m ρ c b)
    (hfin := fun c s' => by
      iintro ⟨⟨Hh, -⟩, HSI⟩
      unfold StableHlo.held
      imodintro
      iapply (pointsTo_read_all (Pipeline.ucRefs τ sig) (fun b => (((c : Thread nD τ)).1, b)) (W15 m ρ c) s')
      isplitl [Hh] <;> iassumption)
    (hQ := fun s h c =>
      ⟨h c _ (mem_uc main_v59 (by decide)),
       (h c _ (mem_uc main_arg0 (by decide))).trans (W15_main_arg0 m ρ c),
       (h c _ (mem_uc main_arg1 (by decide))).trans (W15_main_arg1 m ρ c)⟩)

end Cert.KernelIdeal.Result

end
-- ==== Proof.Arrays.lean ====
/-
  The three entrywise steps of one propagation layer, as functions of WHOLE arrays.

  With E = 1 250 000 edges, N = 50 000 nodes and 64 features:
  * `scaled x r`      — an edge's gathered row times that edge's factor:   (e, d) ↦ x[e,d] · r[e,0];
  * `normalized a s`  — a node's summed row times that node's factor:      (v, d) ↦ a[v,d] · s[v,0];
  * `accumulated a s acc` — the running sum of layers plus the normalized row: (v, d) ↦ acc[v,d] + a[v,d] · s[v,0];
  * `quartered acc`   — the running sum times the word of 0.25:             (v, d) ↦ acc[v,d] · ¼.
  Each is stated at any float instance; a one-column array is read at column 0 of the entry's row.
-/
import proofs.«175120_j9380208574850_1_alg».proof.KernelIdeal
import Idealize.ShloMosaic.Lib.Pipeline.Value

noncomputable section

namespace Cert.KernelIdeal.Arrays

open Idealize.ShloMosaic Cert.KernelIdeal

variable {F : FTy → Type} [FloatOps F]

/-- Entry (e, 0) of a one-column edge array, for the entry (e, d) of a 64-column one. -/
abbrev edgeCol (i : S1250000x64.Idx) : S1250000x1.Idx := fun a => match a with
  | ⟨0, _⟩ => ⟨(i 0).val, (i 0).isLt⟩
  | ⟨1, _⟩ => ⟨0, Nat.one_pos⟩

/-- Entry (v, 0) of a one-column node array, for the entry (v, d) of a 64-column one. -/
abbrev nodeCol (i : S50000x64.Idx) : S50000x1.Idx := fun a => match a with
  | ⟨0, _⟩ => ⟨(i 0).val, (i 0).isLt⟩
  | ⟨1, _⟩ => ⟨0, Nat.one_pos⟩

/-- x[e,d] · r[e,0]. -/
def scaled (x : S1250000x64.Idx → Elt F .f32) (r : S1250000x1.Idx → Elt F .f32) : S1250000x64.Idx → Elt F .f32 :=
  fun i => FloatOps.mulf (x i) (r (edgeCol i))

/-- a[v,d] · s[v,0]. -/
def normalized (a : S50000x64.Idx → Elt F .f32) (s : S50000x1.Idx → Elt F .f32) : S50000x64.Idx → Elt F .f32 :=
  fun i => FloatOps.mulf (a i) (s (nodeCol i))

/-- acc[v,d] + a[v,d] · s[v,0]. -/
def accumulated (a : S50000x64.Idx → Elt F .f32) (s : S50000x1.Idx → Elt F .f32) (acc : S50000x64.Idx → Elt F .f32) :
    S50000x64.Idx → Elt F .f32 :=
  fun i => FloatOps.addf (acc i) (FloatOps.mulf (a i) (s (nodeCol i)))

/-- acc[v,d] · (the f32 word of 0.25). -/
def quartered (acc : S50000x64.Idx → Elt F .f32) : S50000x64.Idx → Elt F .f32 :=
  fun i => FloatOps.mulf (acc i) (FloatOps.ofBits .f32 0x3E800000#32)

end Cert.KernelIdeal.Arrays

end
-- ==== Proof.Bridge.lean ====
/-
  The kernel's three entrywise steps are the reference's host operations, as whole arrays over the extended reals.

  * An edge's message: the kernel multiplies the gathered row by the edge factor, x[e,d] · r[e,0]; the reference spreads
    the factor column over the 64 features and multiplies on the other side, r[e,0] · x[e,d]. Multiplication of extended
    reals is commutative, so no finiteness is needed.
  * A node's update: a[v,d] · s[v,0] and acc[v,d] + a[v,d] · s[v,0] on both sides, the reference spreading the factor
    column first; the same terms.
  * The closing average: the kernel multiplies by the word of 0.25, which is the real 1/4; the reference divides by the
    word of 4.0, the real 4. Division of an extended real by a nonzero real is the product with its inverse
    (`Ideal.div_coe`), for every extended real, infinities included.
-/
import proofs.«175120_j9380208574850_1_alg».proof.Proof.Arrays
import proofs.«175120_j9380208574850_1_alg».proof.Proof.Gen.ReferenceIdeal
import Idealize.ShloMosaic.PureOps.Ideal
import Idealize.ShloMosaic.PureOps.Ideal.Laws
import Idealize.ShloMosaic.Lib.Pipeline.Value

noncomputable section

namespace Cert.KernelIdeal.Bridge

open Idealize.ShloMosaic
open Cert.KernelIdeal Cert.KernelIdeal.Arrays

local notation "RE64" => Cert.ReferenceIdeal.S1250000x64
local notation "RE1" => Cert.ReferenceIdeal.S1250000x1
local notation "RN64" => Cert.ReferenceIdeal.S50000x64
local notation "RN1" => Cert.ReferenceIdeal.S50000x1
local notation "R0" => Cert.ReferenceIdeal.S_

/-- The word of 4.0 is the real 4. -/
theorem ofBits_four : Ideal.ofBits .f32 0x40800000#32 = ((4 : ℝ) : EReal) := by
  simp [Ideal.ofBits, Ideal.ieee, -EReal.coe_mul]; norm_num

/-- The word of 0.25 is the real 1/4. -/
theorem ofBits_quarter : Ideal.ofBits .f32 0x3E800000#32 = ((1 / 4 : ℝ) : EReal) := by
  simp [Ideal.ofBits, Ideal.ieee, -EReal.coe_mul]; norm_num

/-- x[e,d] · r[e,0] is the reference's (r spread over the features) · x. -/
theorem scaled_eq (x : FVec Ideal RE64 .f32) (r : FVec Ideal RE1 .f32) :
    scaled (F := Ideal) x r
      = mulf (F := Ideal) (φ := .f32) (broadcastInDim RE64 ![0, 1] Cert.ReferenceIdeal.Gen.bcast_S1250000x1_S1250000x64_0_1 r) x := by
  funext i
  show FloatOps.mulf (F := Ideal) (φ := .f32) (x i) (r (edgeCol i))
    = FloatOps.mulf (F := Ideal) (φ := .f32) (broadcastInDim RE64 ![0, 1] Cert.ReferenceIdeal.Gen.bcast_S1250000x1_S1250000x64_0_1 r i) (x i)
  rw [broadcastInDim_apply _ Cert.ReferenceIdeal.Gen.bcast_S1250000x1_S1250000x64_0_1 r i (edgeCol i) (fun a => match a with
    | ⟨0, _⟩ => by show (i 0).val = if (1250000 : Nat) = 1 then 0 else (i 0).val; rw [if_neg (by decide)]
    | ⟨1, _⟩ => by show 0 = if (1 : Nat) = 1 then 0 else (i 1).val; rw [if_pos rfl])]
  rw [Ideal.mulf_def, Ideal.mulf_def]
  exact mul_comm _ _

/-- a[v,d] · s[v,0] is the reference's a · (s spread over the features). -/
theorem normalized_eq (a : FVec Ideal RN64 .f32) (s : FVec Ideal RN1 .f32) :
    normalized (F := Ideal) a s
      = mulf (F := Ideal) (φ := .f32) a (broadcastInDim RN64 ![0, 1] Cert.ReferenceIdeal.Gen.bcast_S50000x1_S50000x64_0_1 s) := by
  funext i
  show FloatOps.mulf (F := Ideal) (φ := .f32) (a i) (s (nodeCol i))
    = FloatOps.mulf (F := Ideal) (φ := .f32) (a i) (broadcastInDim RN64 ![0, 1] Cert.ReferenceIdeal.Gen.bcast_S50000x1_S50000x64_0_1 s i)
  rw [broadcastInDim_apply _ Cert.ReferenceIdeal.Gen.bcast_S50000x1_S50000x64_0_1 s i (nodeCol i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-- acc[v,d] + a[v,d] · s[v,0] is the reference's acc + a · (s spread over the features). -/
theorem accumulated_eq (a : FVec Ideal RN64 .f32) (s : FVec Ideal RN1 .f32)
    (acc : FVec Ideal RN64 .f32) :
    accumulated (F := Ideal) a s acc
      = addf (F := Ideal) (φ := .f32) acc (mulf (F := Ideal) (φ := .f32) a (broadcastInDim RN64 ![0, 1] Cert.ReferenceIdeal.Gen.bcast_S50000x1_S50000x64_0_1 s)) := by
  funext i
  show FloatOps.addf (F := Ideal) (φ := .f32) (acc i) (FloatOps.mulf (F := Ideal) (φ := .f32) (a i) (s (nodeCol i)))
    = FloatOps.addf (F := Ideal) (φ := .f32) (acc i) (FloatOps.mulf (F := Ideal) (φ := .f32) (a i) (broadcastInDim RN64 ![0, 1] Cert.ReferenceIdeal.Gen.bcast_S50000x1_S50000x64_0_1 s i))
  rw [broadcastInDim_apply _ Cert.ReferenceIdeal.Gen.bcast_S50000x1_S50000x64_0_1 s i (nodeCol i) (fun a => match a with
    | ⟨0, _⟩ => by show (i 0).val = if (50000 : Nat) = 1 then 0 else (i 0).val; rw [if_neg (by decide)]
    | ⟨1, _⟩ => by show 0 = if (1 : Nat) = 1 then 0 else (i 1).val; rw [if_pos rfl])]

/-- acc[v,d] · ¼ is the reference's acc[v,d] / 4, on every extended real. -/
theorem quartered_eq (acc : FVec Ideal RN64 .f32) :
    quartered (F := Ideal) acc
      = Host.divf (F := Ideal) (φ := .f32) acc (broadcastInDim RN64 ![] Cert.ReferenceIdeal.Gen.bcast_S_S50000x64 (constant (F := Ideal) R0 .f32 0x40800000#32)) := by
  funext i
  show FloatOps.mulf (F := Ideal) (φ := .f32) (acc i) (FloatOps.ofBits (F := Ideal) .f32 0x3E800000#32)
    = FloatOps.hostDivf (F := Ideal) (φ := .f32) (acc i) (broadcastInDim RN64 ![] Cert.ReferenceIdeal.Gen.bcast_S_S50000x64 (constant (F := Ideal) R0 .f32 0x40800000#32) i)
  rw [broadcastInDim_apply _ Cert.ReferenceIdeal.Gen.bcast_S_S50000x64 (constant (F := Ideal) R0 .f32 0x40800000#32) i (fun a => a.elim0) (fun a => a.elim0)]
  show FloatOps.mulf (F := Ideal) (φ := .f32) (acc i) (FloatOps.ofBits (F := Ideal) .f32 0x3E800000#32) = FloatOps.hostDivf (F := Ideal) (φ := .f32) (acc i) (FloatOps.ofBits (F := Ideal) .f32 0x40800000#32)
  rw [Ideal.mulf_def, Ideal.hostDivf_def, Ideal.ofBits_def, Ideal.ofBits_def, ofBits_four, ofBits_quarter,
    Ideal.div_coe (by norm_num : (4 : ℝ) ≠ 0)]

end Cert.KernelIdeal.Bridge

end
-- ==== Proof.Prologue.lean ====
/-
  The host prologue of the idealized kernel, read against the reference's stages.

  Before its first region the kernel's @main computes, from the edge list and the embedding table alone: the row and the
  column of every edge, the node factor s[v] (the reciprocal square root of the clamped out-degree where the degree is
  positive, zero elsewhere) as a vector and as a one-column array, the edge factor r[e] = s[row e] as a one-column array,
  and the first layer's gathered rows x[col e, ·]. The reference computes the same quantities by the same host
  operations. Here each of these buffers, at the boundary where it is complete, is identified with the reference's
  stage of the two arguments (the operations agree one by one, so the two terms are the same term).
-/
import proofs.«175120_j9380208574850_1_alg».proof.Proof.Gen.KernelIdeal.Frame
import proofs.«175120_j9380208574850_1_alg».proof.Proof.Arrays
import proofs.«175120_j9380208574850_1_alg».proof.Proof.RefRead
import Idealize.ShloMosaic.PureOps.Ideal
import Idealize.ShloMosaic.PureOps.Ideal.Laws
import Idealize.ShloMosaic.Lib.StableHlo.Run

set_option maxRecDepth 16384

noncomputable section

namespace Cert.KernelIdeal.Prologue

open Idealize.ShloMosaic Idealize.ShloMosaic.TcCoe Idealize.ShloMosaic.Tactic Idealize.SL.Sem
open Cert.KernelIdeal Cert.KernelIdeal.Gen Cert.KernelIdeal.Arrays
open Cert.ReferenceIdeal.Read

/-- A host stretch leaves a buffer none of its operations writes as it found it. -/
macro "host_keeps" ops:ident : tactic => `(tactic|
  exact StableHlo.after_of_forall_not_mem _ _ (List.forall_iff_forall_mem.mp (by
    simp only [$ops:ident, List.flatten_cons, List.flatten_nil, List.append_nil, List.cons_append, List.nil_append, List.Forall,
      StableHlo.nullary_writes, StableHlo.unary_writes, StableHlo.binary_writes, StableHlo.ternary_writes,
      StableHlo.quaternary_writes, StableHlo.reshape_writes, StableHlo.binaryIndexed_writes, Finset.mem_singleton]
    repeat' apply And.intro
    all_goals exact StableHlo.devRef_ne_of_ne (by decide))))

variable (m : (ℓ : Loc nD τ sig) → Buf (Elt Ideal) ℓ) (ρ : Dev nD → PrngReg) (c : Dev nD)

/-- The edge list and the embedding table as launched, typed as the reference's stages take them. -/
abbrev edges : (⟨Cert.ReferenceIdeal.S2x1250000, .i32⟩ : BufTy).Contents (Elt Ideal) := m ((c : Thread nD τ).loc main_arg0)
abbrev table : (⟨Cert.ReferenceIdeal.S50000x64, .f32⟩ : BufTy).Contents (Elt Ideal) := m ((c : Thread nD τ).loc main_arg1)

/-! ## After the first stretch: rows, columns, and the two halves of the node factor -/

theorem rows1 : W1 m ρ c (Proc.devRef .tc main_v1) = val_main_v1 (F := Ideal) (edges m c) := by
  show StableHlo.after hostOps0 (W0 m ρ c) (Proc.devRef .tc main_v1) = _
  after_results; rfl

theorem cols1 : W1 m ρ c (Proc.devRef .tc main_v3) = val_main_v3 (F := Ideal) (edges m c) := by
  show StableHlo.after hostOps0 (W0 m ρ c) (Proc.devRef .tc main_v3) = _
  after_results; rfl

theorem positive1 : W1 m ρ c (Proc.devRef .tc main_v9) = val_main_v26 (F := Ideal) (edges m c) := by
  show StableHlo.after hostOps0 (W0 m ρ c) (Proc.devRef .tc main_v9) = _
  after_results; rfl

theorem rsqrt1 : W1 m ρ c (Proc.devRef .tc main_v12) = val_main_v29 (F := Ideal) (edges m c) := by
  show StableHlo.after hostOps0 (W0 m ρ c) (Proc.devRef .tc main_v12) = _
  after_results; rfl

theorem zero1 : W1 m ρ c (Proc.devRef .tc main_cst_3) = val_main_cst_11 (F := Ideal) := by
  show StableHlo.after hostOps0 (W0 m ρ c) (Proc.devRef .tc main_cst_3) = _
  after_results; rfl

theorem table1 : W1 m ρ c (Proc.devRef .tc main_arg1) = table m c := by
  show StableHlo.after hostOps0 (W0 m ρ c) (Proc.devRef .tc main_arg1) = W0 m ρ c (Proc.devRef .tc main_arg1)
  host_keeps hostOps0

/-! ## After the call of `where`: the node factor as a vector -/

theorem rows2 : W2 m ρ c (Proc.devRef .tc main_v1) = val_main_v1 (F := Ideal) (edges m c) := by
  refine (?_ : W2 m ρ c (Proc.devRef .tc main_v1) = W1 m ρ c (Proc.devRef .tc main_v1)).trans (rows1 m ρ c)
  host_keeps hostOps0_1

theorem cols2 : W2 m ρ c (Proc.devRef .tc main_v3) = val_main_v3 (F := Ideal) (edges m c) := by
  refine (?_ : W2 m ρ c (Proc.devRef .tc main_v3) = W1 m ρ c (Proc.devRef .tc main_v3)).trans (cols1 m ρ c)
  host_keeps hostOps0_1

theorem table2 : W2 m ρ c (Proc.devRef .tc main_arg1) = table m c := by
  refine (?_ : W2 m ρ c (Proc.devRef .tc main_arg1) = W1 m ρ c (Proc.devRef .tc main_arg1)).trans (table1 m ρ c)
  host_keeps hostOps0_1

/-- s[v] = where(deg[v] > 0, rsqrt(max(deg[v], 1)), 0). -/
theorem factor2 : W2 m ρ c (Proc.devRef .tc main_v13) = val_main_v30 (F := Ideal) (edges m c) := by
  have h9 := positive1 m ρ c
  have h12 := rsqrt1 m ρ c
  have h0 := zero1 m ρ c
  show StableHlo.after hostOps0_1 (W1 m ρ c) (Proc.devRef .tc main_v13) = _
  generalize W1 m ρ c = V at h9 h12 h0 ⊢
  after_results
  -- the callee's operations are stated at typed references: their transports along `rfl` are identities
  simp only [cast_eq]
  rw [h9, h12, h0]
  rfl

/-! ## At the first region's entry: the factor columns and the first gathered rows -/

theorem rows3 : W3 m ρ c (Proc.devRef .tc main_v1) = val_main_v1 (F := Ideal) (edges m c) := by
  refine (?_ : W3 m ρ c (Proc.devRef .tc main_v1) = W2 m ρ c (Proc.devRef .tc main_v1)).trans (rows2 m ρ c)
  host_keeps hostOps0_2

theorem cols3 : W3 m ρ c (Proc.devRef .tc main_v3) = val_main_v3 (F := Ideal) (edges m c) := by
  refine (?_ : W3 m ρ c (Proc.devRef .tc main_v3) = W2 m ρ c (Proc.devRef .tc main_v3)).trans (cols2 m ρ c)
  host_keeps hostOps0_2

theorem table3 : W3 m ρ c (Proc.devRef .tc main_arg1) = table m c := by
  refine (?_ : W3 m ρ c (Proc.devRef .tc main_arg1) = W2 m ρ c (Proc.devRef .tc main_arg1)).trans (table2 m ρ c)
  host_keeps hostOps0_2

/-- The node factor as a one-column array. -/
theorem factorCol3 : W3 m ρ c (Proc.devRef .tc main_v14) = val_main_v51 (F := Ideal) (edges m c) := by
  have h13 := factor2 m ρ c
  show StableHlo.after hostOps0_2 (W2 m ρ c) (Proc.devRef .tc main_v14) = _
  generalize W2 m ρ c = V at h13 ⊢
  after_results
  rw [h13]
  rfl

/-- The edge factor r[e] = s[row e] as a one-column array. -/
theorem edgeFactor3 : W3 m ρ c (Proc.devRef .tc main_v22) = val_main_v38 (F := Ideal) (edges m c) := by
  have h13 := factor2 m ρ c
  have h1 := rows2 m ρ c
  show StableHlo.after hostOps0_2 (W2 m ρ c) (Proc.devRef .tc main_v22) = _
  generalize W2 m ρ c = V at h13 h1 ⊢
  after_results
  rw [h13, h1]
  rfl

set_option maxHeartbeats 4000000 in
/-- The first layer's gathered rows x[col e, ·] of the embedding table. -/
theorem gathered3 : W3 m ρ c (Proc.devRef .tc main_v29) = val_main_v45 (F := Ideal) (edges m c) (table m c) := by
  have ht := table2 m ρ c
  have h3 := cols2 m ρ c
  show StableHlo.after hostOps0_2 (W2 m ρ c) (Proc.devRef .tc main_v29) = _
  generalize W2 m ρ c = V at ht h3 ⊢
  after_results
  rw [ht, h3]
  rfl

end Cert.KernelIdeal.Prologue

end
-- ==== Proof.EdgeRegion0.lean ====
/-
  Region 0 (the edge scaling), read as ONE array.

  The region walks the 1 250 000 edge rows in 125 blocks of 10 000 rows. At a block it loads the block of the gathered
  rows x and the block of the one-column factor r, and stores x[e,d] · r[e,0] over the same rows of the output. Row e of
  block t is row 10000·t + e of each array, so every block is the restriction of the single whole-array function
  `Arrays.scaled x r`, and the 125 blocks tile the output: after the region the output array IS `scaled x r` of the two
  input arrays as the region found them. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Edge0

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (e, 0) of a block of the factor column, for the entry (e, d) of a block of rows. -/
abbrev blockCol (j : S10000x64.Idx) : S10000x1.Idx := fun a => match a with
  | ⟨0, _⟩ => ⟨(j 0).val, (j 0).isLt⟩
  | ⟨1, _⟩ => ⟨0, Nat.one_pos⟩

/-- The body's stored value at an entry of the block: the row's entry times the row's factor (the two shape casts are
    identities, the broadcast reads column 0). -/
theorem pay_apply (x0 : Vec F S10000x64 .f32) (x1 : Vec F S10000x1 .f32) (j : S10000x64.Idx) :
    k0_pay1 x0 x1 j = FloatOps.mulf (x0 j) (x1 (blockCol j)) := by
  unfold k0_pay1
  show FloatOps.mulf (shapeCast S10000x64 x0 shapeCasts_S10000x64_S10000x64 j)
      (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j (blockCol j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

theorem pay_eq (x0 : Vec F S10000x64 .f32) (x1 : Vec F S10000x1 .f32) :
    k0_pay1 x0 x1 = fun j => FloatOps.mulf (x0 j) (x1 (blockCol j)) := funext (pay_apply x0 x1)

/-- The block index maps over the 125 grid points: the three windows move together along the rows, and stay at 0 along
    the columns. -/
theorem idx_facts : ∀ t : Fin cfg0.N, win0_0.index t (0 : Fin 2) = win0_2.index t (0 : Fin 2)
    ∧ win0_0.index t (1 : Fin 2) = 0 ∧ win0_2.index t (1 : Fin 2) = 0
    ∧ win0_1.index t (0 : Fin 2) = win0_2.index t (0 : Fin 2)
    ∧ win0_1.index t (1 : Fin 2) = 0
    ∧ win0_2.index t (0 : Fin 2) ≤ 124 :=
  (by decide +kernel : ∀ t : Fin grid0.N, _)

/-- Every one of the 125 row blocks is some grid point's. -/
theorem idx_onto : ∀ q0 : Fin 125, ∃ t : Fin cfg0.N, win0_2.index t = ![q0.val, 0] :=
  (by decide +kernel : ∀ q0 : Fin 125, ∃ t : Fin grid0.N, win0_2.index t = ![q0.val, 0])

/-- What grid point t writes back is block t of `scaled` of the two input arrays. -/
theorem flushed_eq (c : Dev nD) (t : Fin cfg0.N) :
    (dat0 V c).flushed 2 t = ((cfg0.win 2).blk t).view.read (Elt F) (scaled (V c main_v29) (V c main_v22)) := by
  show (cfg0.win 2).cut (grid0.coords t) ((dat0 V c).after 2 t) = _
  rw [after0_2]
  unfold out0_2
  rw [View.canon_unit_zero hz]
  simp only [View.ld_unit_zero (S := S10000x64) hz, View.ld_unit_zero (S := S10000x1) hz]
  rw [pay_eq]
  obtain ⟨e0, e1, e2, e3, e4, e5⟩ := idx_facts t
  funext j
  show FloatOps.mulf (V c main_v29 (((cfg0.win 0).blk t).view.emb j)) (V c main_v22 (((cfg0.win 1).blk t).view.emb (blockCol j)))
    = FloatOps.mulf (V c main_v29 (((cfg0.win 2).blk t).view.emb j)) (V c main_v22 (edgeCol (((cfg0.win 2).blk t).view.emb j)))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (blockCol j) = edgeCol (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An index of the output array is in point t's block iff each coordinate is in the block's range on its axis. -/
theorem mem_blk (t : Fin cfg0.N) (i : S1250000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v30).slice (win0_2.rect t)).set ↔ _
  rw [View.set_slice_whole, Rect.mem_set_unit]
  exact Iff.rfl

/-- Row e lies in the block of point e / 10000: the blocks tile the output. -/
theorem cover (i : S1250000x64.Idx) : ∃ t : Fin cfg0.N, (cfg0.win 2).flush t = true ∧ i ∈ ((cfg0.win 2).blk t).view.set := by
  have hi0 : (i 0).val < 1250000 := (i 0).isLt
  have hi1 : (i 1).val < 64 := (i 1).isLt
  obtain ⟨t, ht⟩ := idx_onto ⟨(i 0).val / 10000, by omega⟩
  have q0 : win0_2.index t (0 : Fin 2) = (i 0).val / 10000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 10000 ≤ (i 0).val ∧ (i 0).val < win0_2.index t (0 : Fin 2) * 10000 + 10000; omega
  | ⟨1, _⟩ => show win0_2.index t (1 : Fin 2) * 64 ≤ (i 1).val ∧ (i 1).val < win0_2.index t (1 : Fin 2) * 64 + 64; omega

/-- THE OUTPUT ARRAY after the region: `scaled` of the two input arrays as the region found them. -/
theorem out_eq (c : Dev nD) : (dat0 V c).arrAt 2 cfg0.N = scaled (V c main_v29) (V c main_v22) :=
  (dat0 V c).arrAt_eq_of_cover 2 _ (fun t _ => flushed_eq V c t) cover

end Cert.KernelIdeal.Edge0

end
-- ==== Proof.NodeRegion1.lean ====
/-
  Region 1 (the node update), read as TWO arrays.

  The region walks the 50 000 node rows in 10 blocks of 5 000 rows. At a block it loads the block of the summed rows a,
  of the one-column node factor s and of the running sum acc, and stores a[v,d] · s[v,0] over the same rows of its first
  output and acc[v,d] + a[v,d] · s[v,0] over the same rows of its second. Row v of block t is row 5000·t + v of each
  array, so every block is the restriction of `Arrays.normalized a s`, resp. `Arrays.accumulated a s acc`, and the 10
  blocks tile each output. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Node1

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (v, 0) of a block of the factor column, for the entry (v, d) of a block of rows. -/
abbrev blockCol (j : S5000x64.Idx) : S5000x1.Idx := fun a => match a with
  | ⟨0, _⟩ => ⟨(j 0).val, (j 0).isLt⟩
  | ⟨1, _⟩ => ⟨0, Nat.one_pos⟩

/-- The first stored value at an entry of the block: the row's entry times the row's factor. -/
theorem pay1_apply (x0 : Vec F S5000x64 .f32) (x1 : Vec F S5000x1 .f32) (j : S5000x64.Idx) :
    k1_pay1 x0 x1 j = FloatOps.mulf (x0 j) (x1 (blockCol j)) := by
  unfold k1_pay1
  show FloatOps.mulf (shapeCast S5000x64 x0 shapeCasts_S5000x64_S5000x64 j)
      (broadcastTo S5000x64 (shapeCast S5000x1 x1 shapeCasts_S5000x1_S5000x1) broadcasts_S5000x1_S5000x64 j) = _
  rw [shapeCast_self, shapeCast_self]
  rw [broadcastTo_apply x1 broadcasts_S5000x1_S5000x64 j (blockCol j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

theorem pay1_eq (x0 : Vec F S5000x64 .f32) (x1 : Vec F S5000x1 .f32) :
    k1_pay1 x0 x1 = fun j => FloatOps.mulf (x0 j) (x1 (blockCol j)) := funext (pay1_apply x0 x1)

/-- The second stored value: the running sum's entry plus the first. -/
theorem pay2_eq (x0 : Vec F S5000x64 .f32) (x1 : Vec F S5000x1 .f32) (x2 : Vec F S5000x64 .f32) :
    k1_pay2 x0 x1 x2 = fun j => FloatOps.addf (x2 j) (FloatOps.mulf (x0 j) (x1 (blockCol j))) := by
  funext j
  unfold k1_pay2
  show FloatOps.addf (x2 j) (k1_pay1 x0 x1 j) = _
  rw [pay1_apply]

/-- The block index maps over the 10 grid points: all five windows move together along the rows, and stay at 0 along
    the columns. -/
theorem idx_facts : ∀ t : Fin cfg1.N, win1_0.index t (0 : Fin 2) = win1_3.index t (0 : Fin 2)
    ∧ win1_1.index t (0 : Fin 2) = win1_3.index t (0 : Fin 2)
    ∧ win1_2.index t (0 : Fin 2) = win1_3.index t (0 : Fin 2)
    ∧ win1_4.index t (0 : Fin 2) = win1_3.index t (0 : Fin 2)
    ∧ win1_0.index t (1 : Fin 2) = 0 ∧ win1_1.index t (1 : Fin 2) = 0 ∧ win1_2.index t (1 : Fin 2) = 0
    ∧ win1_3.index t (1 : Fin 2) = 0 ∧ win1_4.index t (1 : Fin 2) = 0
    ∧ win1_3.index t (0 : Fin 2) ≤ 9 :=
  (by decide +kernel : ∀ t : Fin grid1.N, _)

/-- Every one of the 10 row blocks is some grid point's, for either output. -/
theorem idx_onto3 : ∀ q0 : Fin 10, ∃ t : Fin cfg1.N, win1_3.index t = ![q0.val, 0] :=
  (by decide +kernel : ∀ q0 : Fin 10, ∃ t : Fin grid1.N, win1_3.index t = ![q0.val, 0])
theorem idx_onto4 : ∀ q0 : Fin 10, ∃ t : Fin cfg1.N, win1_4.index t = ![q0.val, 0] :=
  (by decide +kernel : ∀ q0 : Fin 10, ∃ t : Fin grid1.N, win1_4.index t = ![q0.val, 0])

/-- What grid point t writes back to the first output is block t of `normalized` of the input arrays. -/
theorem flushed3_eq (c : Dev nD) (t : Fin cfg1.N) :
    (dat1 V c).flushed 3 t = ((cfg1.win 3).blk t).view.read (Elt F) (normalized (V c main_v33) (V c main_v14)) := by
  show (cfg1.win 3).cut (grid1.coords t) ((dat1 V c).after 3 t) = _
  rw [after1_3]
  unfold out1_3
  rw [View.canon_unit_zero hz]
  simp only [View.ld_unit_zero (S := S5000x64) hz, View.ld_unit_zero (S := S5000x1) hz]
  rw [pay1_eq]
  obtain ⟨e0, e1, e2, e3, e4, e5, e6, e7, e8, e9⟩ := idx_facts t
  funext j
  show FloatOps.mulf (V c main_v33 (((cfg1.win 0).blk t).view.emb j)) (V c main_v14 (((cfg1.win 1).blk t).view.emb (blockCol j)))
    = FloatOps.mulf (V c main_v33 (((cfg1.win 3).blk t).view.emb j)) (V c main_v14 (nodeCol (((cfg1.win 3).blk t).view.emb j)))
  have h0 : ((cfg1.win 0).blk t).view.emb j = ((cfg1.win 3).blk t).view.emb j := by
    funext a; apply Fin.ext
    match a with
    | ⟨0, _⟩ => show win1_0.index t (0 : Fin 2) * 5000 + 1 * (j 0).val = win1_3.index t (0 : Fin 2) * 5000 + 1 * (j 0).val; omega
    | ⟨1, _⟩ => show win1_0.index t (1 : Fin 2) * 64 + 1 * (j 1).val = win1_3.index t (1 : Fin 2) * 64 + 1 * (j 1).val; omega
  have h1 : ((cfg1.win 1).blk t).view.emb (blockCol j) = nodeCol (((cfg1.win 3).blk t).view.emb j) := by
    funext a; apply Fin.ext
    match a with
    | ⟨0, _⟩ => show win1_1.index t (0 : Fin 2) * 5000 + 1 * (j 0).val = win1_3.index t (0 : Fin 2) * 5000 + 1 * (j 0).val; omega
    | ⟨1, _⟩ => show win1_1.index t (1 : Fin 2) * 1 + 1 * 0 = 0; omega
  rw [h0, h1]

/-- What grid point t writes back to the second output is block t of `accumulated` of the input arrays. -/
theorem flushed4_eq (c : Dev nD) (t : Fin cfg1.N) :
    (dat1 V c).flushed 4 t = ((cfg1.win 4).blk t).view.read (Elt F) (accumulated (V c main_v33) (V c main_v14) (V c main_arg1)) := by
  show (cfg1.win 4).cut (grid1.coords t) ((dat1 V c).after 4 t) = _
  rw [after1_4]
  unfold out1_4
  rw [View.canon_unit_zero hz]
  simp only [View.ld_unit_zero (S := S5000x64) hz, View.ld_unit_zero (S := S5000x1) hz]
  rw [pay2_eq]
  obtain ⟨e0, e1, e2, e3, e4, e5, e6, e7, e8, e9⟩ := idx_facts t
  funext j
  show FloatOps.addf (V c main_arg1 (((cfg1.win 2).blk t).view.emb j))
      (FloatOps.mulf (V c main_v33 (((cfg1.win 0).blk t).view.emb j)) (V c main_v14 (((cfg1.win 1).blk t).view.emb (blockCol j))))
    = FloatOps.addf (V c main_arg1 (((cfg1.win 4).blk t).view.emb j))
      (FloatOps.mulf (V c main_v33 (((cfg1.win 4).blk t).view.emb j)) (V c main_v14 (nodeCol (((cfg1.win 4).blk t).view.emb j))))
  have h0 : ((cfg1.win 0).blk t).view.emb j = ((cfg1.win 4).blk t).view.emb j := by
    funext a; apply Fin.ext
    match a with
    | ⟨0, _⟩ => show win1_0.index t (0 : Fin 2) * 5000 + 1 * (j 0).val = win1_4.index t (0 : Fin 2) * 5000 + 1 * (j 0).val; omega
    | ⟨1, _⟩ => show win1_0.index t (1 : Fin 2) * 64 + 1 * (j 1).val = win1_4.index t (1 : Fin 2) * 64 + 1 * (j 1).val; omega
  have h2 : ((cfg1.win 2).blk t).view.emb j = ((cfg1.win 4).blk t).view.emb j := by
    funext a; apply Fin.ext
    match a with
    | ⟨0, _⟩ => show win1_2.index t (0 : Fin 2) * 5000 + 1 * (j 0).val = win1_4.index t (0 : Fin 2) * 5000 + 1 * (j 0).val; omega
    | ⟨1, _⟩ => show win1_2.index t (1 : Fin 2) * 64 + 1 * (j 1).val = win1_4.index t (1 : Fin 2) * 64 + 1 * (j 1).val; omega
  have h1 : ((cfg1.win 1).blk t).view.emb (blockCol j) = nodeCol (((cfg1.win 4).blk t).view.emb j) := by
    funext a; apply Fin.ext
    match a with
    | ⟨0, _⟩ => show win1_1.index t (0 : Fin 2) * 5000 + 1 * (j 0).val = win1_4.index t (0 : Fin 2) * 5000 + 1 * (j 0).val; omega
    | ⟨1, _⟩ => show win1_1.index t (1 : Fin 2) * 1 + 1 * 0 = 0; omega
  rw [h0, h1, h2]

/-- An index of an output array is in point t's block iff each coordinate is in the block's range on its axis. -/
theorem mem_blk3 (t : Fin cfg1.N) (i : S50000x64.Idx) :
    i ∈ ((cfg1.win 3).blk t).view.set ↔ ∀ a : Fin 2, win1_3.index t a * S5000x64.size a ≤ (i a).val ∧ (i a).val < win1_3.index t a * S5000x64.size a + S5000x64.size a := by
  show i ∈ ((View.whole main_v34_0).slice (win1_3.rect t)).set ↔ _
  rw [View.set_slice_whole, Rect.mem_set_unit]
  exact Iff.rfl
theorem mem_blk4 (t : Fin cfg1.N) (i : S50000x64.Idx) :
    i ∈ ((cfg1.win 4).blk t).view.set ↔ ∀ a : Fin 2, win1_4.index t a * S5000x64.size a ≤ (i a).val ∧ (i a).val < win1_4.index t a * S5000x64.size a + S5000x64.size a := by
  show i ∈ ((View.whole main_v34_1).slice (win1_4.rect t)).set ↔ _
  rw [View.set_slice_whole, Rect.mem_set_unit]
  exact Iff.rfl

/-- Row v lies in the block of point v / 5000: the blocks tile each output. -/
theorem cover3 (i : S50000x64.Idx) : ∃ t : Fin cfg1.N, (cfg1.win 3).flush t = true ∧ i ∈ ((cfg1.win 3).blk t).view.set := by
  have hi0 : (i 0).val < 50000 := (i 0).isLt
  have hi1 : (i 1).val < 64 := (i 1).isLt
  obtain ⟨t, ht⟩ := idx_onto3 ⟨(i 0).val / 5000, by omega⟩
  have q0 : win1_3.index t (0 : Fin 2) = (i 0).val / 5000 := congrFun ht 0
  have q1 : win1_3.index t (1 : Fin 2) = 0 := congrFun ht 1
  refine ⟨t, flush1_3 t, ?_⟩
  rw [mem_blk3]
  intro a
  match a with
  | ⟨0, _⟩ => show win1_3.index t (0 : Fin 2) * 5000 ≤ (i 0).val ∧ (i 0).val < win1_3.index t (0 : Fin 2) * 5000 + 5000; omega
  | ⟨1, _⟩ => show win1_3.index t (1 : Fin 2) * 64 ≤ (i 1).val ∧ (i 1).val < win1_3.index t (1 : Fin 2) * 64 + 64; omega
theorem cover4 (i : S50000x64.Idx) : ∃ t : Fin cfg1.N, (cfg1.win 4).flush t = true ∧ i ∈ ((cfg1.win 4).blk t).view.set := by
  have hi0 : (i 0).val < 50000 := (i 0).isLt
  have hi1 : (i 1).val < 64 := (i 1).isLt
  obtain ⟨t, ht⟩ := idx_onto4 ⟨(i 0).val / 5000, by omega⟩
  have q0 : win1_4.index t (0 : Fin 2) = (i 0).val / 5000 := congrFun ht 0
  have q1 : win1_4.index t (1 : Fin 2) = 0 := congrFun ht 1
  refine ⟨t, flush1_4 t, ?_⟩
  rw [mem_blk4]
  intro a
  match a with
  | ⟨0, _⟩ => show win1_4.index t (0 : Fin 2) * 5000 ≤ (i 0).val ∧ (i 0).val < win1_4.index t (0 : Fin 2) * 5000 + 5000; omega
  | ⟨1, _⟩ => show win1_4.index t (1 : Fin 2) * 64 ≤ (i 1).val ∧ (i 1).val < win1_4.index t (1 : Fin 2) * 64 + 64; omega

/-- THE OUTPUT ARRAYS after the region. -/
theorem out3_eq (c : Dev nD) : (dat1 V c).arrAt 3 cfg1.N = normalized (V c main_v33) (V c main_v14) :=
  (dat1 V c).arrAt_eq_of_cover 3 _ (fun t _ => flushed3_eq V c t) cover3
theorem out4_eq (c : Dev nD) : (dat1 V c).arrAt 4 cfg1.N = accumulated (V c main_v33) (V c main_v14) (V c main_arg1) :=
  (dat1 V c).arrAt_eq_of_cover 4 _ (fun t _ => flushed4_eq V c t) cover4

end Cert.KernelIdeal.Node1

end
-- ==== Proof.Layer1.lean ====
/-
  The first propagation layer of the idealized kernel, read against the reference's stages.

  From the prologue's buffers: region 0 scales the gathered rows by the edge factor (the messages), a host scatter-add sums
  the messages of the edges of each row node, and region 1 multiplies the sums by the node factor (the layer's embedding)
  and adds that to the embedding table (the running sum). Each buffer, at the boundary where it is complete, is the
  reference's stage of the two arguments; buffers written earlier and read later are carried across the boundaries
  (no region and no host stretch in between writes them).
-/
import proofs.«175120_j9380208574850_1_alg».proof.Proof.Gen.KernelIdeal.Frame
import proofs.«175120_j9380208574850_1_alg».proof.Proof.Arrays
import proofs.«175120_j9380208574850_1_alg».proof.Proof.RefRead
import proofs.«175120_j9380208574850_1_alg».proof.Proof.Bridge
import proofs.«175120_j9380208574850_1_alg».proof.Proof.Prologue
import proofs.«175120_j9380208574850_1_alg».proof.Proof.EdgeRegion0
import proofs.«175120_j9380208574850_1_alg».proof.Proof.NodeRegion1
import Idealize.ShloMosaic.PureOps.Ideal
import Idealize.ShloMosaic.PureOps.Ideal.Laws
import Idealize.ShloMosaic.Lib.StableHlo.Run

set_option maxRecDepth 16384

noncomputable section

namespace Cert.KernelIdeal.Layer1

open Idealize.ShloMosaic Idealize.ShloMosaic.TcCoe Idealize.ShloMosaic.Tactic Idealize.SL.Sem
open Cert.KernelIdeal Cert.KernelIdeal.Gen Cert.KernelIdeal.Arrays
open Cert.ReferenceIdeal.Read
open Cert.KernelIdeal.Prologue

variable (m : (ℓ : Loc nD τ sig) → Buf (Elt Ideal) ℓ) (ρ : Dev nD → PrngReg) (c : Dev nD)

/-! ## Region 0: the messages m[e,d] = x[col e, d] · s[row e] -/

theorem rows4 : W4 m ρ c (Proc.devRef .tc main_v1) = val_main_v1 (F := Ideal) (edges m c) :=
  (W4_of_ne m ρ c main_v1 (by decide)).trans (rows3 m ρ c)

theorem cols4 : W4 m ρ c (Proc.devRef .tc main_v3) = val_main_v3 (F := Ideal) (edges m c) :=
  (W4_of_ne m ρ c main_v3 (by decide)).trans (cols3 m ρ c)

theorem factorCol4 : W4 m ρ c (Proc.devRef .tc main_v14) = val_main_v51 (F := Ideal) (edges m c) :=
  (W4_of_ne m ρ c main_v14 (by decide)).trans (factorCol3 m ρ c)

theorem edgeFactor4 : W4 m ρ c (Proc.devRef .tc main_v22) = val_main_v38 (F := Ideal) (edges m c) :=
  -- the buffer is input window 1 of this region: an input window's array is never written back
  ((W4_arr m ρ c 1).trans (((dat0 (V3 m ρ) c).arrAt_in 1 rfl _).trans (A_eq0 (V3 m ρ) c 1))).trans (edgeFactor3 m ρ c)

theorem table4 : W4 m ρ c (Proc.devRef .tc main_arg1) = table m c :=
  (W4_of_ne m ρ c main_arg1 (by decide)).trans (table3 m ρ c)

theorem messages4 : W4 m ρ c (Proc.devRef .tc main_v30) = val_main_v47 (F := Ideal) (edges m c) (table m c) := by
  refine (W4_arr m ρ c 2).trans ((Edge0.out_eq (V3 m ρ) c).trans ?_)
  exact (congrArg₂ (scaled (F := Ideal)) (gathered3 m ρ c) (edgeFactor3 m ρ c)).trans (Bridge.scaled_eq _ _)

/-! ## The scatter-add: a[v,d] = Σ over the edges e with row e = v of m[e,d] -/

theorem rows5 : W5 m ρ c (Proc.devRef .tc main_v1) = val_main_v1 (F := Ideal) (edges m c) := by
  refine (?_ : W5 m ρ c (Proc.devRef .tc main_v1) = W4 m ρ c (Proc.devRef .tc main_v1)).trans (rows4 m ρ c)
  host_keeps hostOps1

theorem cols5 : W5 m ρ c (Proc.devRef .tc main_v3) = val_main_v3 (F := Ideal) (edges m c) := by
  refine (?_ : W5 m ρ c (Proc.devRef .tc main_v3) = W4 m ρ c (Proc.devRef .tc main_v3)).trans (cols4 m ρ c)
  host_keeps hostOps1

theorem factorCol5 : W5 m ρ c (Proc.devRef .tc main_v14) = val_main_v51 (F := Ideal) (edges m c) := by
  refine (?_ : W5 m ρ c (Proc.devRef .tc main_v14) = W4 m ρ c (Proc.devRef .tc main_v14)).trans (factorCol4 m ρ c)
  host_keeps hostOps1

theorem edgeFactor5 : W5 m ρ c (Proc.devRef .tc main_v22) = val_main_v38 (F := Ideal) (edges m c) := by
  refine (?_ : W5 m ρ c (Proc.devRef .tc main_v22) = W4 m ρ c (Proc.devRef .tc main_v22)).trans (edgeFactor4 m ρ c)
  host_keeps hostOps1

theorem table5 : W5 m ρ c (Proc.devRef .tc main_arg1) = table m c := by
  refine (?_ : W5 m ρ c (Proc.devRef .tc main_arg1) = W4 m ρ c (Proc.devRef .tc main_arg1)).trans (table4 m ρ c)
  host_keeps hostOps1

theorem summed5 : W5 m ρ c (Proc.devRef .tc main_v33) = val_main_v50 (F := Ideal) (edges m c) (table m c) := by
  have h1 := rows4 m ρ c
  have h30 := messages4 m ρ c
  show StableHlo.after hostOps1 (W4 m ρ c) (Proc.devRef .tc main_v33) = _
  generalize W4 m ρ c = V at h1 h30 ⊢
  after_results
  rw [h1, h30]
  rfl

/-! ## Region 1: the layer's embedding a[v,d] · s[v] and the running sum -/

theorem rows6 : W6 m ρ c (Proc.devRef .tc main_v1) = val_main_v1 (F := Ideal) (edges m c) :=
  (W6_of_ne m ρ c main_v1 (by decide)).trans (rows5 m ρ c)

theorem cols6 : W6 m ρ c (Proc.devRef .tc main_v3) = val_main_v3 (F := Ideal) (edges m c) :=
  (W6_of_ne m ρ c main_v3 (by decide)).trans (cols5 m ρ c)

theorem factorCol6 : W6 m ρ c (Proc.devRef .tc main_v14) = val_main_v51 (F := Ideal) (edges m c) :=
  -- the buffer is input window 1 of this region: an input window's array is never written back
  ((W6_arr m ρ c 1).trans (((dat1 (V5 m ρ) c).arrAt_in 1 rfl _).trans (A_eq1 (V5 m ρ) c 1))).trans (factorCol5 m ρ c)

theorem edgeFactor6 : W6 m ρ c (Proc.devRef .tc main_v22) = val_main_v38 (F := Ideal) (edges m c) :=
  (W6_of_ne m ρ c main_v22 (by decide)).trans (edgeFactor5 m ρ c)

theorem embedding6 : W6 m ρ c (Proc.devRef .tc main_v34_0) = val_main_v53 (F := Ideal) (edges m c) (table m c) := by
  refine (W6_arr m ρ c 3).trans ((Node1.out3_eq (V5 m ρ) c).trans ?_)
  exact (congrArg₂ (normalized (F := Ideal)) (summed5 m ρ c) (factorCol5 m ρ c)).trans (Bridge.normalized_eq _ _)

theorem running1_6 : W6 m ρ c (Proc.devRef .tc main_v34_1) = val_main_v54 (F := Ideal) (edges m c) (table m c) := by
  refine (W6_arr m ρ c 4).trans ((Node1.out4_eq (V5 m ρ) c).trans ?_)
  exact (congr (congrArg₂ (accumulated (F := Ideal)) (summed5 m ρ c) (factorCol5 m ρ c)) (table5 m ρ c)).trans
    (Bridge.accumulated_eq _ _ _)

end Cert.KernelIdeal.Layer1

end
-- ==== Proof.EdgeRegion2.lean ====
/-
  Region 2 (the edge scaling), read as ONE array.

  The region walks the 1 250 000 edge rows in 125 blocks of 10 000 rows. At a block it loads the block of the gathered
  rows x and the block of the one-column factor r, and stores x[e,d] · r[e,0] over the same rows of the output. Row e of
  block t is row 10000·t + e of each array, so every block is the restriction of the single whole-array function
  `Arrays.scaled x r`, and the 125 blocks tile the output: after the region the output array IS `scaled x r` of the two
  input arrays as the region found them. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Edge2

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (e, 0) of a block of the factor column, for the entry (e, d) of a block of rows. -/
abbrev blockCol (j : S10000x64.Idx) : S10000x1.Idx := fun a => match a with
  | ⟨0, _⟩ => ⟨(j 0).val, (j 0).isLt⟩
  | ⟨1, _⟩ => ⟨0, Nat.one_pos⟩

/-- The body's stored value at an entry of the block: the row's entry times the row's factor (the two shape casts are
    identities, the broadcast reads column 0). -/
theorem pay_apply (x0 : Vec F S10000x64 .f32) (x1 : Vec F S10000x1 .f32) (j : S10000x64.Idx) :
    k2_pay1 x0 x1 j = FloatOps.mulf (x0 j) (x1 (blockCol j)) := by
  unfold k2_pay1
  show FloatOps.mulf (shapeCast S10000x64 x0 shapeCasts_S10000x64_S10000x64 j)
      (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j (blockCol j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

theorem pay_eq (x0 : Vec F S10000x64 .f32) (x1 : Vec F S10000x1 .f32) :
    k2_pay1 x0 x1 = fun j => FloatOps.mulf (x0 j) (x1 (blockCol j)) := funext (pay_apply x0 x1)

/-- The block index maps over the 125 grid points: the three windows move together along the rows, and stay at 0 along
    the columns. -/
theorem idx_facts : ∀ t : Fin cfg2.N, win2_0.index t (0 : Fin 2) = win2_2.index t (0 : Fin 2)
    ∧ win2_0.index t (1 : Fin 2) = 0 ∧ win2_2.index t (1 : Fin 2) = 0
    ∧ win2_1.index t (0 : Fin 2) = win2_2.index t (0 : Fin 2)
    ∧ win2_1.index t (1 : Fin 2) = 0
    ∧ win2_2.index t (0 : Fin 2) ≤ 124 :=
  (by decide +kernel : ∀ t : Fin grid2.N, _)

/-- Every one of the 125 row blocks is some grid point's. -/
theorem idx_onto : ∀ q0 : Fin 125, ∃ t : Fin cfg2.N, win2_2.index t = ![q0.val, 0] :=
  (by decide +kernel : ∀ q0 : Fin 125, ∃ t : Fin grid2.N, win2_2.index t = ![q0.val, 0])

/-- What grid point t writes back is block t of `scaled` of the two input arrays. -/
theorem flushed_eq (c : Dev nD) (t : Fin cfg2.N) :
    (dat2 V c).flushed 2 t = ((cfg2.win 2).blk t).view.read (Elt F) (scaled (V c main_v41) (V c main_v22)) := by
  show (cfg2.win 2).cut (grid2.coords t) ((dat2 V c).after 2 t) = _
  rw [after2_2]
  unfold out2_2
  rw [View.canon_unit_zero hz]
  simp only [View.ld_unit_zero (S := S10000x64) hz, View.ld_unit_zero (S := S10000x1) hz]
  rw [pay_eq]
  obtain ⟨e0, e1, e2, e3, e4, e5⟩ := idx_facts t
  funext j
  show FloatOps.mulf (V c main_v41 (((cfg2.win 0).blk t).view.emb j)) (V c main_v22 (((cfg2.win 1).blk t).view.emb (blockCol j)))
    = FloatOps.mulf (V c main_v41 (((cfg2.win 2).blk t).view.emb j)) (V c main_v22 (edgeCol (((cfg2.win 2).blk t).view.emb j)))
  have h0 : ((cfg2.win 0).blk t).view.emb j = ((cfg2.win 2).blk t).view.emb j := by
    funext a; apply Fin.ext
    match a with
    | ⟨0, _⟩ => show win2_0.index t (0 : Fin 2) * 10000 + 1 * (j 0).val = win2_2.index t (0 : Fin 2) * 10000 + 1 * (j 0).val; omega
    | ⟨1, _⟩ => show win2_0.index t (1 : Fin 2) * 64 + 1 * (j 1).val = win2_2.index t (1 : Fin 2) * 64 + 1 * (j 1).val; omega
  have h1 : ((cfg2.win 1).blk t).view.emb (blockCol j) = edgeCol (((cfg2.win 2).blk t).view.emb j) := by
    funext a; apply Fin.ext
    match a with
    | ⟨0, _⟩ => show win2_1.index t (0 : Fin 2) * 10000 + 1 * (j 0).val = win2_2.index t (0 : Fin 2) * 10000 + 1 * (j 0).val; omega
    | ⟨1, _⟩ => show win2_1.index t (1 : Fin 2) * 1 + 1 * 0 = 0; omega
  rw [h0, h1]

/-- An index of the output array is in point t's block iff each coordinate is in the block's range on its axis. -/
theorem mem_blk (t : Fin cfg2.N) (i : S1250000x64.Idx) :
    i ∈ ((cfg2.win 2).blk t).view.set ↔ ∀ a : Fin 2, win2_2.index t a * S10000x64.size a ≤ (i a).val ∧ (i a).val < win2_2.index t a * S10000x64.size a + S10000x64.size a := by
  show i ∈ ((View.whole main_v42).slice (win2_2.rect t)).set ↔ _
  rw [View.set_slice_whole, Rect.mem_set_unit]
  exact Iff.rfl

/-- Row e lies in the block of point e / 10000: the blocks tile the output. -/
theorem cover (i : S1250000x64.Idx) : ∃ t : Fin cfg2.N, (cfg2.win 2).flush t = true ∧ i ∈ ((cfg2.win 2).blk t).view.set := by
  have hi0 : (i 0).val < 1250000 := (i 0).isLt
  have hi1 : (i 1).val < 64 := (i 1).isLt
  obtain ⟨t, ht⟩ := idx_onto ⟨(i 0).val / 10000, by omega⟩
  have q0 : win2_2.index t (0 : Fin 2) = (i 0).val / 10000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 10000 ≤ (i 0).val ∧ (i 0).val < win2_2.index t (0 : Fin 2) * 10000 + 10000; omega
  | ⟨1, _⟩ => show win2_2.index t (1 : Fin 2) * 64 ≤ (i 1).val ∧ (i 1).val < win2_2.index t (1 : Fin 2) * 64 + 64; omega

/-- THE OUTPUT ARRAY after the region: `scaled` of the two input arrays as the region found them. -/
theorem out_eq (c : Dev nD) : (dat2 V c).arrAt 2 cfg2.N = scaled (V c main_v41) (V c main_v22) :=
  (dat2 V c).arrAt_eq_of_cover 2 _ (fun t _ => flushed_eq V c t) cover

end Cert.KernelIdeal.Edge2

end
-- ==== Proof.NodeRegion3.lean ====
/-
  Region 3 (the node update), read as TWO arrays.

  The region walks the 50 000 node rows in 10 blocks of 5 000 rows. At a block it loads the block of the summed rows a,
  of the one-column node factor s and of the running sum acc, and stores a[v,d] · s[v,0] over the same rows of its first
  output and acc[v,d] + a[v,d] · s[v,0] over the same rows of its second. Row v of block t is row 5000·t + v of each
  array, so every block is the restriction of `Arrays.normalized a s`, resp. `Arrays.accumulated a s acc`, and the 10
  blocks tile each output. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Node3

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (v, 0) of a block of the factor column, for the entry (v, d) of a block of rows. -/
abbrev blockCol (j : S5000x64.Idx) : S5000x1.Idx := fun a => match a with
  | ⟨0, _⟩ => ⟨(j 0).val, (j 0).isLt⟩
  | ⟨1, _⟩ => ⟨0, Nat.one_pos⟩

/-- The first stored value at an entry of the block: the row's entry times the row's factor. -/
theorem pay1_apply (x0 : Vec F S5000x64 .f32) (x1 : Vec F S5000x1 .f32) (j : S5000x64.Idx) :
    k3_pay1 x0 x1 j = FloatOps.mulf (x0 j) (x1 (blockCol j)) := by
  unfold k3_pay1
  show FloatOps.mulf (shapeCast S5000x64 x0 shapeCasts_S5000x64_S5000x64 j)
      (broadcastTo S5000x64 (shapeCast S5000x1 x1 shapeCasts_S5000x1_S5000x1) broadcasts_S5000x1_S5000x64 j) = _
  rw [shapeCast_self, shapeCast_self]
  rw [broadcastTo_apply x1 broadcasts_S5000x1_S5000x64 j (blockCol j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

theorem pay1_eq (x0 : Vec F S5000x64 .f32) (x1 : Vec F S5000x1 .f32) :
    k3_pay1 x0 x1 = fun j => FloatOps.mulf (x0 j) (x1 (blockCol j)) := funext (pay1_apply x0 x1)

/-- The second stored value: the running sum's entry (read through an identity shape cast) plus the first. -/
theorem pay2_eq (x0 : Vec F S5000x64 .f32) (x1 : Vec F S5000x1 .f32) (x2 : Vec F S5000x64 .f32) :
    k3_pay2 x0 x1 x2 = fun j => FloatOps.addf (x2 j) (FloatOps.mulf (x0 j) (x1 (blockCol j))) := by
  funext j
  unfold k3_pay2
  show FloatOps.addf (shapeCast S5000x64 x2 shapeCasts_S5000x64_S5000x64 j) (k3_pay1 x0 x1 j) = _
  rw [shapeCast_self, pay1_apply]

/-- The block index maps over the 10 grid points: all five windows move together along the rows, and stay at 0 along
    the columns. -/
theorem idx_facts : ∀ t : Fin cfg3.N, win3_0.index t (0 : Fin 2) = win3_3.index t (0 : Fin 2)
    ∧ win3_1.index t (0 : Fin 2) = win3_3.index t (0 : Fin 2)
    ∧ win3_2.index t (0 : Fin 2) = win3_3.index t (0 : Fin 2)
    ∧ win3_4.index t (0 : Fin 2) = win3_3.index t (0 : Fin 2)
    ∧ win3_0.index t (1 : Fin 2) = 0 ∧ win3_1.index t (1 : Fin 2) = 0 ∧ win3_2.index t (1 : Fin 2) = 0
    ∧ win3_3.index t (1 : Fin 2) = 0 ∧ win3_4.index t (1 : Fin 2) = 0
    ∧ win3_3.index t (0 : Fin 2) ≤ 9 :=
  (by decide +kernel : ∀ t : Fin grid3.N, _)

/-- Every one of the 10 row blocks is some grid point's, for either output. -/
theorem idx_onto3 : ∀ q0 : Fin 10, ∃ t : Fin cfg3.N, win3_3.index t = ![q0.val, 0] :=
  (by decide +kernel : ∀ q0 : Fin 10, ∃ t : Fin grid3.N, win3_3.index t = ![q0.val, 0])
theorem idx_onto4 : ∀ q0 : Fin 10, ∃ t : Fin cfg3.N, win3_4.index t = ![q0.val, 0] :=
  (by decide +kernel : ∀ q0 : Fin 10, ∃ t : Fin grid3.N, win3_4.index t = ![q0.val, 0])

/-- What grid point t writes back to the first output is block t of `normalized` of the input arrays. -/
theorem flushed3_eq (c : Dev nD) (t : Fin cfg3.N) :
    (dat3 V c).flushed 3 t = ((cfg3.win 3).blk t).view.read (Elt F) (normalized (V c main_v45) (V c main_v14)) := by
  show (cfg3.win 3).cut (grid3.coords t) ((dat3 V c).after 3 t) = _
  rw [after3_3]
  unfold out3_3
  rw [View.canon_unit_zero hz]
  simp only [View.ld_unit_zero (S := S5000x64) hz, View.ld_unit_zero (S := S5000x1) hz]
  rw [pay1_eq]
  obtain ⟨e0, e1, e2, e3, e4, e5, e6, e7, e8, e9⟩ := idx_facts t
  funext j
  show FloatOps.mulf (V c main_v45 (((cfg3.win 0).blk t).view.emb j)) (V c main_v14 (((cfg3.win 1).blk t).view.emb (blockCol j)))
    = FloatOps.mulf (V c main_v45 (((cfg3.win 3).blk t).view.emb j)) (V c main_v14 (nodeCol (((cfg3.win 3).blk t).view.emb j)))
  have h0 : ((cfg3.win 0).blk t).view.emb j = ((cfg3.win 3).blk t).view.emb j := by
    funext a; apply Fin.ext
    match a with
    | ⟨0, _⟩ => show win3_0.index t (0 : Fin 2) * 5000 + 1 * (j 0).val = win3_3.index t (0 : Fin 2) * 5000 + 1 * (j 0).val; omega
    | ⟨1, _⟩ => show win3_0.index t (1 : Fin 2) * 64 + 1 * (j 1).val = win3_3.index t (1 : Fin 2) * 64 + 1 * (j 1).val; omega
  have h1 : ((cfg3.win 1).blk t).view.emb (blockCol j) = nodeCol (((cfg3.win 3).blk t).view.emb j) := by
    funext a; apply Fin.ext
    match a with
    | ⟨0, _⟩ => show win3_1.index t (0 : Fin 2) * 5000 + 1 * (j 0).val = win3_3.index t (0 : Fin 2) * 5000 + 1 * (j 0).val; omega
    | ⟨1, _⟩ => show win3_1.index t (1 : Fin 2) * 1 + 1 * 0 = 0; omega
  rw [h0, h1]

/-- What grid point t writes back to the second output is block t of `accumulated` of the input arrays. -/
theorem flushed4_eq (c : Dev nD) (t : Fin cfg3.N) :
    (dat3 V c).flushed 4 t = ((cfg3.win 4).blk t).view.read (Elt F) (accumulated (V c main_v45) (V c main_v14) (V c main_v34_1)) := by
  show (cfg3.win 4).cut (grid3.coords t) ((dat3 V c).after 4 t) = _
  rw [after3_4]
  unfold out3_4
  rw [View.canon_unit_zero hz]
  simp only [View.ld_unit_zero (S := S5000x64) hz, View.ld_unit_zero (S := S5000x1) hz]
  rw [pay2_eq]
  obtain ⟨e0, e1, e2, e3, e4, e5, e6, e7, e8, e9⟩ := idx_facts t
  funext j
  show FloatOps.addf (V c main_v34_1 (((cfg3.win 2).blk t).view.emb j))
      (FloatOps.mulf (V c main_v45 (((cfg3.win 0).blk t).view.emb j)) (V c main_v14 (((cfg3.win 1).blk t).view.emb (blockCol j))))
    = FloatOps.addf (V c main_v34_1 (((cfg3.win 4).blk t).view.emb j))
      (FloatOps.mulf (V c main_v45 (((cfg3.win 4).blk t).view.emb j)) (V c main_v14 (nodeCol (((cfg3.win 4).blk t).view.emb j))))
  have h0 : ((cfg3.win 0).blk t).view.emb j = ((cfg3.win 4).blk t).view.emb j := by
    funext a; apply Fin.ext
    match a with
    | ⟨0, _⟩ => show win3_0.index t (0 : Fin 2) * 5000 + 1 * (j 0).val = win3_4.index t (0 : Fin 2) * 5000 + 1 * (j 0).val; omega
    | ⟨1, _⟩ => show win3_0.index t (1 : Fin 2) * 64 + 1 * (j 1).val = win3_4.index t (1 : Fin 2) * 64 + 1 * (j 1).val; omega
  have h2 : ((cfg3.win 2).blk t).view.emb j = ((cfg3.win 4).blk t).view.emb j := by
    funext a; apply Fin.ext
    match a with
    | ⟨0, _⟩ => show win3_2.index t (0 : Fin 2) * 5000 + 1 * (j 0).val = win3_4.index t (0 : Fin 2) * 5000 + 1 * (j 0).val; omega
    | ⟨1, _⟩ => show win3_2.index t (1 : Fin 2) * 64 + 1 * (j 1).val = win3_4.index t (1 : Fin 2) * 64 + 1 * (j 1).val; omega
  have h1 : ((cfg3.win 1).blk t).view.emb (blockCol j) = nodeCol (((cfg3.win 4).blk t).view.emb j) := by
    funext a; apply Fin.ext
    match a with
    | ⟨0, _⟩ => show win3_1.index t (0 : Fin 2) * 5000 + 1 * (j 0).val = win3_4.index t (0 : Fin 2) * 5000 + 1 * (j 0).val; omega
    | ⟨1, _⟩ => show win3_1.index t (1 : Fin 2) * 1 + 1 * 0 = 0; omega
  rw [h0, h1, h2]

/-- An index of an output array is in point t's block iff each coordinate is in the block's range on its axis. -/
theorem mem_blk3 (t : Fin cfg3.N) (i : S50000x64.Idx) :
    i ∈ ((cfg3.win 3).blk t).view.set ↔ ∀ a : Fin 2, win3_3.index t a * S5000x64.size a ≤ (i a).val ∧ (i a).val < win3_3.index t a * S5000x64.size a + S5000x64.size a := by
  show i ∈ ((View.whole main_v46_0).slice (win3_3.rect t)).set ↔ _
  rw [View.set_slice_whole, Rect.mem_set_unit]
  exact Iff.rfl
theorem mem_blk4 (t : Fin cfg3.N) (i : S50000x64.Idx) :
    i ∈ ((cfg3.win 4).blk t).view.set ↔ ∀ a : Fin 2, win3_4.index t a * S5000x64.size a ≤ (i a).val ∧ (i a).val < win3_4.index t a * S5000x64.size a + S5000x64.size a := by
  show i ∈ ((View.whole main_v46_1).slice (win3_4.rect t)).set ↔ _
  rw [View.set_slice_whole, Rect.mem_set_unit]
  exact Iff.rfl

/-- Row v lies in the block of point v / 5000: the blocks tile each output. -/
theorem cover3 (i : S50000x64.Idx) : ∃ t : Fin cfg3.N, (cfg3.win 3).flush t = true ∧ i ∈ ((cfg3.win 3).blk t).view.set := by
  have hi0 : (i 0).val < 50000 := (i 0).isLt
  have hi1 : (i 1).val < 64 := (i 1).isLt
  obtain ⟨t, ht⟩ := idx_onto3 ⟨(i 0).val / 5000, by omega⟩
  have q0 : win3_3.index t (0 : Fin 2) = (i 0).val / 5000 := congrFun ht 0
  have q1 : win3_3.index t (1 : Fin 2) = 0 := congrFun ht 1
  refine ⟨t, flush3_3 t, ?_⟩
  rw [mem_blk3]
  intro a
  match a with
  | ⟨0, _⟩ => show win3_3.index t (0 : Fin 2) * 5000 ≤ (i 0).val ∧ (i 0).val < win3_3.index t (0 : Fin 2) * 5000 + 5000; omega
  | ⟨1, _⟩ => show win3_3.index t (1 : Fin 2) * 64 ≤ (i 1).val ∧ (i 1).val < win3_3.index t (1 : Fin 2) * 64 + 64; omega
theorem cover4 (i : S50000x64.Idx) : ∃ t : Fin cfg3.N, (cfg3.win 4).flush t = true ∧ i ∈ ((cfg3.win 4).blk t).view.set := by
  have hi0 : (i 0).val < 50000 := (i 0).isLt
  have hi1 : (i 1).val < 64 := (i 1).isLt
  obtain ⟨t, ht⟩ := idx_onto4 ⟨(i 0).val / 5000, by omega⟩
  have q0 : win3_4.index t (0 : Fin 2) = (i 0).val / 5000 := congrFun ht 0
  have q1 : win3_4.index t (1 : Fin 2) = 0 := congrFun ht 1
  refine ⟨t, flush3_4 t, ?_⟩
  rw [mem_blk4]
  intro a
  match a with
  | ⟨0, _⟩ => show win3_4.index t (0 : Fin 2) * 5000 ≤ (i 0).val ∧ (i 0).val < win3_4.index t (0 : Fin 2) * 5000 + 5000; omega
  | ⟨1, _⟩ => show win3_4.index t (1 : Fin 2) * 64 ≤ (i 1).val ∧ (i 1).val < win3_4.index t (1 : Fin 2) * 64 + 64; omega

/-- THE OUTPUT ARRAYS after the region. -/
theorem out3_eq (c : Dev nD) : (dat3 V c).arrAt 3 cfg3.N = normalized (V c main_v45) (V c main_v14) :=
  (dat3 V c).arrAt_eq_of_cover 3 _ (fun t _ => flushed3_eq V c t) cover3
theorem out4_eq (c : Dev nD) : (dat3 V c).arrAt 4 cfg3.N = accumulated (V c main_v45) (V c main_v14) (V c main_v34_1) :=
  (dat3 V c).arrAt_eq_of_cover 4 _ (fun t _ => flushed4_eq V c t) cover4

end Cert.KernelIdeal.Node3

end
-- ==== Proof.Layer2.lean ====
/-
  The second propagation layer of the idealized kernel, read against the reference's stages.

  A host gather takes the rows of the first layer's embedding at the edges' columns, region 2 scales them by the edge
  factor, a host scatter-add sums them per row node, and region 3 multiplies by the node factor and adds to the running
  sum. The reference recomputes the two factor columns at every layer by the same operations, so its second-layer
  stages of them are its first-layer stages.
-/
import proofs.«175120_j9380208574850_1_alg».proof.Proof.Gen.KernelIdeal.Frame
import proofs.«175120_j9380208574850_1_alg».proof.Proof.Arrays
import proofs.«175120_j9380208574850_1_alg».proof.Proof.RefRead
import proofs.«175120_j9380208574850_1_alg».proof.Proof.Bridge
import proofs.«175120_j9380208574850_1_alg».proof.Proof.Prologue
import proofs.«175120_j9380208574850_1_alg».proof.Proof.Layer1
import proofs.«175120_j9380208574850_1_alg».proof.Proof.EdgeRegion2
import proofs.«175120_j9380208574850_1_alg».proof.Proof.NodeRegion3
import Idealize.ShloMosaic.PureOps.Ideal
import Idealize.ShloMosaic.PureOps.Ideal.Laws
import Idealize.ShloMosaic.Lib.StableHlo.Run

set_option maxRecDepth 16384

noncomputable section

namespace Cert.KernelIdeal.Layer2

open Idealize.ShloMosaic Idealize.ShloMosaic.TcCoe Idealize.ShloMosaic.Tactic Idealize.SL.Sem
open Cert.KernelIdeal Cert.KernelIdeal.Gen Cert.KernelIdeal.Arrays
open Cert.ReferenceIdeal.Read
open Cert.KernelIdeal.Prologue Cert.KernelIdeal.Layer1

/-- The reference's edge factor column and node factor column at the later layers are those of the first layer. -/
theorem edgeFactor_layer2 (x0 : (⟨Cert.ReferenceIdeal.S2x1250000, .i32⟩ : BufTy).Contents (Elt Ideal)) :
    val_main_v62 (F := Ideal) x0 = val_main_v38 (F := Ideal) x0 := rfl
theorem edgeFactor_layer3 (x0 : (⟨Cert.ReferenceIdeal.S2x1250000, .i32⟩ : BufTy).Contents (Elt Ideal)) :
    val_main_v86 (F := Ideal) x0 = val_main_v38 (F := Ideal) x0 := rfl
theorem factorCol_layer2 (x0 : (⟨Cert.ReferenceIdeal.S2x1250000, .i32⟩ : BufTy).Contents (Elt Ideal)) :
    val_main_v75 (F := Ideal) x0 = val_main_v51 (F := Ideal) x0 := rfl
theorem factorCol_layer3 (x0 : (⟨Cert.ReferenceIdeal.S2x1250000, .i32⟩ : BufTy).Contents (Elt Ideal)) :
    val_main_v99 (F := Ideal) x0 = val_main_v51 (F := Ideal) x0 := rfl

variable (m : (ℓ : Loc nD τ sig) → Buf (Elt Ideal) ℓ) (ρ : Dev nD → PrngReg) (c : Dev nD)

/-! ## The gather: x[e,d] = (first embedding)[col e, d] -/

theorem rows7 : W7 m ρ c (Proc.devRef .tc main_v1) = val_main_v1 (F := Ideal) (edges m c) := by
  refine (?_ : W7 m ρ c (Proc.devRef .tc main_v1) = W6 m ρ c (Proc.devRef .tc main_v1)).trans (rows6 m ρ c)
  host_keeps hostOps2

theorem cols7 : W7 m ρ c (Proc.devRef .tc main_v3) = val_main_v3 (F := Ideal) (edges m c) := by
  refine (?_ : W7 m ρ c (Proc.devRef .tc main_v3) = W6 m ρ c (Proc.devRef .tc main_v3)).trans (cols6 m ρ c)
  host_keeps hostOps2

theorem factorCol7 : W7 m ρ c (Proc.devRef .tc main_v14) = val_main_v51 (F := Ideal) (edges m c) := by
  refine (?_ : W7 m ρ c (Proc.devRef .tc main_v14) = W6 m ρ c (Proc.devRef .tc main_v14)).trans (factorCol6 m ρ c)
  host_keeps hostOps2

theorem edgeFactor7 : W7 m ρ c (Proc.devRef .tc main_v22) = val_main_v38 (F := Ideal) (edges m c) := by
  refine (?_ : W7 m ρ c (Proc.devRef .tc main_v22) = W6 m ρ c (Proc.devRef .tc main_v22)).trans (edgeFactor6 m ρ c)
  host_keeps hostOps2

theorem running1_7 : W7 m ρ c (Proc.devRef .tc main_v34_1) = val_main_v54 (F := Ideal) (edges m c) (table m c) := by
  refine (?_ : W7 m ρ c (Proc.devRef .tc main_v34_1) = W6 m ρ c (Proc.devRef .tc main_v34_1)).trans (running1_6 m ρ c)
  host_keeps hostOps2

theorem gathered7 : W7 m ρ c (Proc.devRef .tc main_v41) = val_main_v69 (F := Ideal) (edges m c) (table m c) := by
  have h3 := cols6 m ρ c
  have hx := embedding6 m ρ c
  show StableHlo.after hostOps2 (W6 m ρ c) (Proc.devRef .tc main_v41) = _
  generalize W6 m ρ c = V at h3 hx ⊢
  after_results
  rw [h3, hx]
  rfl

/-! ## Region 2: the messages -/

theorem rows8 : W8 m ρ c (Proc.devRef .tc main_v1) = val_main_v1 (F := Ideal) (edges m c) :=
  (W8_of_ne m ρ c main_v1 (by decide)).trans (rows7 m ρ c)

theorem cols8 : W8 m ρ c (Proc.devRef .tc main_v3) = val_main_v3 (F := Ideal) (edges m c) :=
  (W8_of_ne m ρ c main_v3 (by decide)).trans (cols7 m ρ c)

theorem factorCol8 : W8 m ρ c (Proc.devRef .tc main_v14) = val_main_v51 (F := Ideal) (edges m c) :=
  (W8_of_ne m ρ c main_v14 (by decide)).trans (factorCol7 m ρ c)

theorem edgeFactor8 : W8 m ρ c (Proc.devRef .tc main_v22) = val_main_v38 (F := Ideal) (edges m c) :=
  -- the buffer is input window 1 of this region: an input window's array is never written back
  ((W8_arr m ρ c 1).trans (((dat2 (V7 m ρ) c).arrAt_in 1 rfl _).trans (A_eq2 (V7 m ρ) c 1))).trans (edgeFactor7 m ρ c)

theorem running1_8 : W8 m ρ c (Proc.devRef .tc main_v34_1) = val_main_v54 (F := Ideal) (edges m c) (table m c) :=
  (W8_of_ne m ρ c main_v34_1 (by decide)).trans (running1_7 m ρ c)

theorem messages8 : W8 m ρ c (Proc.devRef .tc main_v42) = val_main_v71 (F := Ideal) (edges m c) (table m c) := by
  refine (W8_arr m ρ c 2).trans ((Edge2.out_eq (V7 m ρ) c).trans ?_)
  exact (congrArg₂ (scaled (F := Ideal)) (gathered7 m ρ c)
    ((edgeFactor7 m ρ c).trans (edgeFactor_layer2 _).symm)).trans (Bridge.scaled_eq _ _)

/-! ## The scatter-add -/

theorem rows9 : W9 m ρ c (Proc.devRef .tc main_v1) = val_main_v1 (F := Ideal) (edges m c) := by
  refine (?_ : W9 m ρ c (Proc.devRef .tc main_v1) = W8 m ρ c (Proc.devRef .tc main_v1)).trans (rows8 m ρ c)
  host_keeps hostOps3

theorem cols9 : W9 m ρ c (Proc.devRef .tc main_v3) = val_main_v3 (F := Ideal) (edges m c) := by
  refine (?_ : W9 m ρ c (Proc.devRef .tc main_v3) = W8 m ρ c (Proc.devRef .tc main_v3)).trans (cols8 m ρ c)
  host_keeps hostOps3

theorem factorCol9 : W9 m ρ c (Proc.devRef .tc main_v14) = val_main_v51 (F := Ideal) (edges m c) := by
  refine (?_ : W9 m ρ c (Proc.devRef .tc main_v14) = W8 m ρ c (Proc.devRef .tc main_v14)).trans (factorCol8 m ρ c)
  host_keeps hostOps3

theorem edgeFactor9 : W9 m ρ c (Proc.devRef .tc main_v22) = val_main_v38 (F := Ideal) (edges m c) := by
  refine (?_ : W9 m ρ c (Proc.devRef .tc main_v22) = W8 m ρ c (Proc.devRef .tc main_v22)).trans (edgeFactor8 m ρ c)
  host_keeps hostOps3

theorem running1_9 : W9 m ρ c (Proc.devRef .tc main_v34_1) = val_main_v54 (F := Ideal) (edges m c) (table m c) := by
  refine (?_ : W9 m ρ c (Proc.devRef .tc main_v34_1) = W8 m ρ c (Proc.devRef .tc main_v34_1)).trans (running1_8 m ρ c)
  host_keeps hostOps3

theorem summed9 : W9 m ρ c (Proc.devRef .tc main_v45) = val_main_v74 (F := Ideal) (edges m c) (table m c) := by
  have h1 := rows8 m ρ c
  have hm := messages8 m ρ c
  show StableHlo.after hostOps3 (W8 m ρ c) (Proc.devRef .tc main_v45) = _
  generalize W8 m ρ c = V at h1 hm ⊢
  after_results
  rw [h1, hm]
  rfl

/-! ## Region 3: the layer's embedding and the running sum -/

theorem rows10 : W10 m ρ c (Proc.devRef .tc main_v1) = val_main_v1 (F := Ideal) (edges m c) :=
  (W10_of_ne m ρ c main_v1 (by decide)).trans (rows9 m ρ c)

theorem cols10 : W10 m ρ c (Proc.devRef .tc main_v3) = val_main_v3 (F := Ideal) (edges m c) :=
  (W10_of_ne m ρ c main_v3 (by decide)).trans (cols9 m ρ c)

theorem factorCol10 : W10 m ρ c (Proc.devRef .tc main_v14) = val_main_v51 (F := Ideal) (edges m c) :=
  -- the buffer is input window 1 of this region: an input window's array is never written back
  ((W10_arr m ρ c 1).trans (((dat3 (V9 m ρ) c).arrAt_in 1 rfl _).trans (A_eq3 (V9 m ρ) c 1))).trans (factorCol9 m ρ c)

theorem edgeFactor10 : W10 m ρ c (Proc.devRef .tc main_v22) = val_main_v38 (F := Ideal) (edges m c) :=
  (W10_of_ne m ρ c main_v22 (by decide)).trans (edgeFactor9 m ρ c)

theorem embedding10 : W10 m ρ c (Proc.devRef .tc main_v46_0) = val_main_v77 (F := Ideal) (edges m c) (table m c) := by
  refine (W10_arr m ρ c 3).trans ((Node3.out3_eq (V9 m ρ) c).trans ?_)
  exact (congrArg₂ (normalized (F := Ideal)) (summed9 m ρ c)
    ((factorCol9 m ρ c).trans (factorCol_layer2 _).symm)).trans (Bridge.normalized_eq _ _)

theorem running2_10 : W10 m ρ c (Proc.devRef .tc main_v46_1) = val_main_v78 (F := Ideal) (edges m c) (table m c) := by
  refine (W10_arr m ρ c 4).trans ((Node3.out4_eq (V9 m ρ) c).trans ?_)
  exact (congr (congrArg₂ (accumulated (F := Ideal)) (summed9 m ρ c)
    ((factorCol9 m ρ c).trans (factorCol_layer2 _).symm)) (running1_9 m ρ c)).trans (Bridge.accumulated_eq _ _ _)

end Cert.KernelIdeal.Layer2

end
-- ==== Proof.EdgeRegion4.lean ====
/-
  Region 4 (the edge scaling), read as ONE array.

  The region walks the 1 250 000 edge rows in 125 blocks of 10 000 rows. At a block it loads the block of the gathered
  rows x and the block of the one-column factor r, and stores x[e,d] · r[e,0] over the same rows of the output. Row e of
  block t is row 10000·t + e of each array, so every block is the restriction of the single whole-array function
  `Arrays.scaled x r`, and the 125 blocks tile the output: after the region the output array IS `scaled x r` of the two
  input arrays as the region found them. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Edge4

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (e, 0) of a block of the factor column, for the entry (e, d) of a block of rows. -/
abbrev blockCol (j : S10000x64.Idx) : S10000x1.Idx := fun a => match a with
  | ⟨0, _⟩ => ⟨(j 0).val, (j 0).isLt⟩
  | ⟨1, _⟩ => ⟨0, Nat.one_pos⟩

/-- The body's stored value at an entry of the block: the row's entry times the row's factor (the two shape casts are
    identities, the broadcast reads column 0). -/
theorem pay_apply (x0 : Vec F S10000x64 .f32) (x1 : Vec F S10000x1 .f32) (j : S10000x64.Idx) :
    k4_pay1 x0 x1 j = FloatOps.mulf (x0 j) (x1 (blockCol j)) := by
  unfold k4_pay1
  show FloatOps.mulf (shapeCast S10000x64 x0 shapeCasts_S10000x64_S10000x64 j)
      (broadcastTo S10000x64 (shapeCast S10000x1 x1 shapeCasts_S10000x1_S10000x1) broadcasts_S10000x1_S10000x64 j) = _
  rw [shapeCast_self, shapeCast_self]
  rw [broadcastTo_apply x1 broadcasts_S10000x1_S10000x64 j (blockCol j) (fun a => match a with
    | ⟨0, _⟩ => by show (j 0).val = if (10000 : Nat) = 1 then 0 else (j 0).val; rw [if_neg (by decide)]
    | ⟨1, _⟩ => by show 0 = if (1 : Nat) = 1 then 0 else (j 1).val; rw [if_pos rfl])]

theorem pay_eq (x0 : Vec F S10000x64 .f32) (x1 : Vec F S10000x1 .f32) :
    k4_pay1 x0 x1 = fun j => FloatOps.mulf (x0 j) (x1 (blockCol j)) := funext (pay_apply x0 x1)

/-- The block index maps over the 125 grid points: the three windows move together along the rows, and stay at 0 along
    the columns. -/
theorem idx_facts : ∀ t : Fin cfg4.N, win4_0.index t (0 : Fin 2) = win4_2.index t (0 : Fin 2)
    ∧ win4_0.index t (1 : Fin 2) = 0 ∧ win4_2.index t (1 : Fin 2) = 0
    ∧ win4_1.index t (0 : Fin 2) = win4_2.index t (0 : Fin 2)
    ∧ win4_1.index t (1 : Fin 2) = 0
    ∧ win4_2.index t (0 : Fin 2) ≤ 124 :=
  (by decide +kernel : ∀ t : Fin grid4.N, _)

/-- Every one of the 125 row blocks is some grid point's. -/
theorem idx_onto : ∀ q0 : Fin 125, ∃ t : Fin cfg4.N, win4_2.index t = ![q0.val, 0] :=
  (by decide +kernel : ∀ q0 : Fin 125, ∃ t : Fin grid4.N, win4_2.index t = ![q0.val, 0])

/-- What grid point t writes back is block t of `scaled` of the two input arrays. -/
theorem flushed_eq (c : Dev nD) (t : Fin cfg4.N) :
    (dat4 V c).flushed 2 t = ((cfg4.win 2).blk t).view.read (Elt F) (scaled (V c main_v53) (V c main_v22)) := by
  show (cfg4.win 2).cut (grid4.coords t) ((dat4 V c).after 2 t) = _
  rw [after4_2]
  unfold out4_2
  rw [View.canon_unit_zero hz]
  simp only [View.ld_unit_zero (S := S10000x64) hz, View.ld_unit_zero (S := S10000x1) hz]
  rw [pay_eq]
  obtain ⟨e0, e1, e2, e3, e4, e5⟩ := idx_facts t
  funext j
  show FloatOps.mulf (V c main_v53 (((cfg4.win 0).blk t).view.emb j)) (V c main_v22 (((cfg4.win 1).blk t).view.emb (blockCol j)))
    = FloatOps.mulf (V c main_v53 (((cfg4.win 2).blk t).view.emb j)) (V c main_v22 (edgeCol (((cfg4.win 2).blk t).view.emb j)))
  have h0 : ((cfg4.win 0).blk t).view.emb j = ((cfg4.win 2).blk t).view.emb j := by
    funext a; apply Fin.ext
    match a with
    | ⟨0, _⟩ => show win4_0.index t (0 : Fin 2) * 10000 + 1 * (j 0).val = win4_2.index t (0 : Fin 2) * 10000 + 1 * (j 0).val; omega
    | ⟨1, _⟩ => show win4_0.index t (1 : Fin 2) * 64 + 1 * (j 1).val = win4_2.index t (1 : Fin 2) * 64 + 1 * (j 1).val; omega
  have h1 : ((cfg4.win 1).blk t).view.emb (blockCol j) = edgeCol (((cfg4.win 2).blk t).view.emb j) := by
    funext a; apply Fin.ext
    match a with
    | ⟨0, _⟩ => show win4_1.index t (0 : Fin 2) * 10000 + 1 * (j 0).val = win4_2.index t (0 : Fin 2) * 10000 + 1 * (j 0).val; omega
    | ⟨1, _⟩ => show win4_1.index t (1 : Fin 2) * 1 + 1 * 0 = 0; omega
  rw [h0, h1]

/-- An index of the output array is in point t's block iff each coordinate is in the block's range on its axis. -/
theorem mem_blk (t : Fin cfg4.N) (i : S1250000x64.Idx) :
    i ∈ ((cfg4.win 2).blk t).view.set ↔ ∀ a : Fin 2, win4_2.index t a * S10000x64.size a ≤ (i a).val ∧ (i a).val < win4_2.index t a * S10000x64.size a + S10000x64.size a := by
  show i ∈ ((View.whole main_v54).slice (win4_2.rect t)).set ↔ _
  rw [View.set_slice_whole, Rect.mem_set_unit]
  exact Iff.rfl

/-- Row e lies in the block of point e / 10000: the blocks tile the output. -/
theorem cover (i : S1250000x64.Idx) : ∃ t : Fin cfg4.N, (cfg4.win 2).flush t = true ∧ i ∈ ((cfg4.win 2).blk t).view.set := by
  have hi0 : (i 0).val < 1250000 := (i 0).isLt
  have hi1 : (i 1).val < 64 := (i 1).isLt
  obtain ⟨t, ht⟩ := idx_onto ⟨(i 0).val / 10000, by omega⟩
  have q0 : win4_2.index t (0 : Fin 2) = (i 0).val / 10000 := congrFun ht 0
  have q1 : win4_2.index t (1 : Fin 2) = 0 := congrFun ht 1
  refine ⟨t, flush4_2 t, ?_⟩
  rw [mem_blk]
  intro a
  match a with
  | ⟨0, _⟩ => show win4_2.index t (0 : Fin 2) * 10000 ≤ (i 0).val ∧ (i 0).val < win4_2.index t (0 : Fin 2) * 10000 + 10000; omega
  | ⟨1, _⟩ => show win4_2.index t (1 : Fin 2) * 64 ≤ (i 1).val ∧ (i 1).val < win4_2.index t (1 : Fin 2) * 64 + 64; omega

/-- THE OUTPUT ARRAY after the region: `scaled` of the two input arrays as the region found them. -/
theorem out_eq (c : Dev nD) : (dat4 V c).arrAt 2 cfg4.N = scaled (V c main_v53) (V c main_v22) :=
  (dat4 V c).arrAt_eq_of_cover 2 _ (fun t _ => flushed_eq V c t) cover

end Cert.KernelIdeal.Edge4

end
-- ==== Proof.NodeRegion5.lean ====
/-
  Region 5 (the node update), read as TWO arrays.

  The region walks the 50 000 node rows in 10 blocks of 5 000 rows. At a block it loads the block of the summed rows a,
  of the one-column node factor s and of the running sum acc, and stores a[v,d] · s[v,0] over the same rows of its first
  output and acc[v,d] + a[v,d] · s[v,0] over the same rows of its second. Row v of block t is row 5000·t + v of each
  array, so every block is the restriction of `Arrays.normalized a s`, resp. `Arrays.accumulated a s acc`, and the 10
  blocks tile each output. Stated for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Node5

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- Entry (v, 0) of a block of the factor column, for the entry (v, d) of a block of rows. -/
abbrev blockCol (j : S5000x64.Idx) : S5000x1.Idx := fun a => match a with
  | ⟨0, _⟩ => ⟨(j 0).val, (j 0).isLt⟩
  | ⟨1, _⟩ => ⟨0, Nat.one_pos⟩

/-- The first stored value at an entry of the block: the row's entry times the row's factor. -/
theorem pay1_apply (x0 : Vec F S5000x64 .f32) (x1 : Vec F S5000x1 .f32) (j : S5000x64.Idx) :
    k5_pay1 x0 x1 j = FloatOps.mulf (x0 j) (x1 (blockCol j)) := by
  unfold k5_pay1
  show FloatOps.mulf (shapeCast S5000x64 x0 shapeCasts_S5000x64_S5000x64 j)
      (broadcastTo S5000x64 (shapeCast S5000x1 x1 shapeCasts_S5000x1_S5000x1) broadcasts_S5000x1_S5000x64 j) = _
  rw [shapeCast_self, shapeCast_self]
  rw [broadcastTo_apply x1 broadcasts_S5000x1_S5000x64 j (blockCol j) (fun a => match a with
    | ⟨0, _⟩ => by show (j 0).val = if (5000 : Nat) = 1 then 0 else (j 0).val; rw [if_neg (by decide)]
    | ⟨1, _⟩ => by show 0 = if (1 : Nat) = 1 then 0 else (j 1).val; rw [if_pos rfl])]

theorem pay1_eq (x0 : Vec F S5000x64 .f32) (x1 : Vec F S5000x1 .f32) :
    k5_pay1 x0 x1 = fun j => FloatOps.mulf (x0 j) (x1 (blockCol j)) := funext (pay1_apply x0 x1)

/-- The second stored value: the running sum's entry (read through an identity shape cast) plus the first. -/
theorem pay2_eq (x0 : Vec F S5000x64 .f32) (x1 : Vec F S5000x1 .f32) (x2 : Vec F S5000x64 .f32) :
    k5_pay2 x0 x1 x2 = fun j => FloatOps.addf (x2 j) (FloatOps.mulf (x0 j) (x1 (blockCol j))) := by
  funext j
  unfold k5_pay2
  show FloatOps.addf (shapeCast S5000x64 x2 shapeCasts_S5000x64_S5000x64 j) (k5_pay1 x0 x1 j) = _
  rw [shapeCast_self, pay1_apply]

/-- The block index maps over the 10 grid points: all five windows move together along the rows, and stay at 0 along
    the columns. -/
theorem idx_facts : ∀ t : Fin cfg5.N, win5_0.index t (0 : Fin 2) = win5_3.index t (0 : Fin 2)
    ∧ win5_1.index t (0 : Fin 2) = win5_3.index t (0 : Fin 2)
    ∧ win5_2.index t (0 : Fin 2) = win5_3.index t (0 : Fin 2)
    ∧ win5_4.index t (0 : Fin 2) = win5_3.index t (0 : Fin 2)
    ∧ win5_0.index t (1 : Fin 2) = 0 ∧ win5_1.index t (1 : Fin 2) = 0 ∧ win5_2.index t (1 : Fin 2) = 0
    ∧ win5_3.index t (1 : Fin 2) = 0 ∧ win5_4.index t (1 : Fin 2) = 0
    ∧ win5_3.index t (0 : Fin 2) ≤ 9 :=
  (by decide +kernel : ∀ t : Fin grid5.N, _)

/-- Every one of the 10 row blocks is some grid point's, for either output. -/
theorem idx_onto3 : ∀ q0 : Fin 10, ∃ t : Fin cfg5.N, win5_3.index t = ![q0.val, 0] :=
  (by decide +kernel : ∀ q0 : Fin 10, ∃ t : Fin grid5.N, win5_3.index t = ![q0.val, 0])
theorem idx_onto4 : ∀ q0 : Fin 10, ∃ t : Fin cfg5.N, win5_4.index t = ![q0.val, 0] :=
  (by decide +kernel : ∀ q0 : Fin 10, ∃ t : Fin grid5.N, win5_4.index t = ![q0.val, 0])

/-- What grid point t writes back to the first output is block t of `normalized` of the input arrays. -/
theorem flushed3_eq (c : Dev nD) (t : Fin cfg5.N) :
    (dat5 V c).flushed 3 t = ((cfg5.win 3).blk t).view.read (Elt F) (normalized (V c main_v57) (V c main_v14)) := by
  show (cfg5.win 3).cut (grid5.coords t) ((dat5 V c).after 3 t) = _
  rw [after5_3]
  unfold out5_3
  rw [View.canon_unit_zero hz]
  simp only [View.ld_unit_zero (S := S5000x64) hz, View.ld_unit_zero (S := S5000x1) hz]
  rw [pay1_eq]
  obtain ⟨e0, e1, e2, e3, e4, e5, e6, e7, e8, e9⟩ := idx_facts t
  funext j
  show FloatOps.mulf (V c main_v57 (((cfg5.win 0).blk t).view.emb j)) (V c main_v14 (((cfg5.win 1).blk t).view.emb (blockCol j)))
    = FloatOps.mulf (V c main_v57 (((cfg5.win 3).blk t).view.emb j)) (V c main_v14 (nodeCol (((cfg5.win 3).blk t).view.emb j)))
  have h0 : ((cfg5.win 0).blk t).view.emb j = ((cfg5.win 3).blk t).view.emb j := by
    funext a; apply Fin.ext
    match a with
    | ⟨0, _⟩ => show win5_0.index t (0 : Fin 2) * 5000 + 1 * (j 0).val = win5_3.index t (0 : Fin 2) * 5000 + 1 * (j 0).val; omega
    | ⟨1, _⟩ => show win5_0.index t (1 : Fin 2) * 64 + 1 * (j 1).val = win5_3.index t (1 : Fin 2) * 64 + 1 * (j 1).val; omega
  have h1 : ((cfg5.win 1).blk t).view.emb (blockCol j) = nodeCol (((cfg5.win 3).blk t).view.emb j) := by
    funext a; apply Fin.ext
    match a with
    | ⟨0, _⟩ => show win5_1.index t (0 : Fin 2) * 5000 + 1 * (j 0).val = win5_3.index t (0 : Fin 2) * 5000 + 1 * (j 0).val; omega
    | ⟨1, _⟩ => show win5_1.index t (1 : Fin 2) * 1 + 1 * 0 = 0; omega
  rw [h0, h1]

/-- What grid point t writes back to the second output is block t of `accumulated` of the input arrays. -/
theorem flushed4_eq (c : Dev nD) (t : Fin cfg5.N) :
    (dat5 V c).flushed 4 t = ((cfg5.win 4).blk t).view.read (Elt F) (accumulated (V c main_v57) (V c main_v14) (V c main_v46_1)) := by
  show (cfg5.win 4).cut (grid5.coords t) ((dat5 V c).after 4 t) = _
  rw [after5_4]
  unfold out5_4
  rw [View.canon_unit_zero hz]
  simp only [View.ld_unit_zero (S := S5000x64) hz, View.ld_unit_zero (S := S5000x1) hz]
  rw [pay2_eq]
  obtain ⟨e0, e1, e2, e3, e4, e5, e6, e7, e8, e9⟩ := idx_facts t
  funext j
  show FloatOps.addf (V c main_v46_1 (((cfg5.win 2).blk t).view.emb j))
      (FloatOps.mulf (V c main_v57 (((cfg5.win 0).blk t).view.emb j)) (V c main_v14 (((cfg5.win 1).blk t).view.emb (blockCol j))))
    = FloatOps.addf (V c main_v46_1 (((cfg5.win 4).blk t).view.emb j))
      (FloatOps.mulf (V c main_v57 (((cfg5.win 4).blk t).view.emb j)) (V c main_v14 (nodeCol (((cfg5.win 4).blk t).view.emb j))))
  have h0 : ((cfg5.win 0).blk t).view.emb j = ((cfg5.win 4).blk t).view.emb j := by
    funext a; apply Fin.ext
    match a with
    | ⟨0, _⟩ => show win5_0.index t (0 : Fin 2) * 5000 + 1 * (j 0).val = win5_4.index t (0 : Fin 2) * 5000 + 1 * (j 0).val; omega
    | ⟨1, _⟩ => show win5_0.index t (1 : Fin 2) * 64 + 1 * (j 1).val = win5_4.index t (1 : Fin 2) * 64 + 1 * (j 1).val; omega
  have h2 : ((cfg5.win 2).blk t).view.emb j = ((cfg5.win 4).blk t).view.emb j := by
    funext a; apply Fin.ext
    match a with
    | ⟨0, _⟩ => show win5_2.index t (0 : Fin 2) * 5000 + 1 * (j 0).val = win5_4.index t (0 : Fin 2) * 5000 + 1 * (j 0).val; omega
    | ⟨1, _⟩ => show win5_2.index t (1 : Fin 2) * 64 + 1 * (j 1).val = win5_4.index t (1 : Fin 2) * 64 + 1 * (j 1).val; omega
  have h1 : ((cfg5.win 1).blk t).view.emb (blockCol j) = nodeCol (((cfg5.win 4).blk t).view.emb j) := by
    funext a; apply Fin.ext
    match a with
    | ⟨0, _⟩ => show win5_1.index t (0 : Fin 2) * 5000 + 1 * (j 0).val = win5_4.index t (0 : Fin 2) * 5000 + 1 * (j 0).val; omega
    | ⟨1, _⟩ => show win5_1.index t (1 : Fin 2) * 1 + 1 * 0 = 0; omega
  rw [h0, h1, h2]

/-- An index of an output array is in point t's block iff each coordinate is in the block's range on its axis. -/
theorem mem_blk3 (t : Fin cfg5.N) (i : S50000x64.Idx) :
    i ∈ ((cfg5.win 3).blk t).view.set ↔ ∀ a : Fin 2, win5_3.index t a * S5000x64.size a ≤ (i a).val ∧ (i a).val < win5_3.index t a * S5000x64.size a + S5000x64.size a := by
  show i ∈ ((View.whole main_v58_0).slice (win5_3.rect t)).set ↔ _
  rw [View.set_slice_whole, Rect.mem_set_unit]
  exact Iff.rfl
theorem mem_blk4 (t : Fin cfg5.N) (i : S50000x64.Idx) :
    i ∈ ((cfg5.win 4).blk t).view.set ↔ ∀ a : Fin 2, win5_4.index t a * S5000x64.size a ≤ (i a).val ∧ (i a).val < win5_4.index t a * S5000x64.size a + S5000x64.size a := by
  show i ∈ ((View.whole main_v58_1).slice (win5_4.rect t)).set ↔ _
  rw [View.set_slice_whole, Rect.mem_set_unit]
  exact Iff.rfl

/-- Row v lies in the block of point v / 5000: the blocks tile each output. -/
theorem cover3 (i : S50000x64.Idx) : ∃ t : Fin cfg5.N, (cfg5.win 3).flush t = true ∧ i ∈ ((cfg5.win 3).blk t).view.set := by
  have hi0 : (i 0).val < 50000 := (i 0).isLt
  have hi1 : (i 1).val < 64 := (i 1).isLt
  obtain ⟨t, ht⟩ := idx_onto3 ⟨(i 0).val / 5000, by omega⟩
  have q0 : win5_3.index t (0 : Fin 2) = (i 0).val / 5000 := congrFun ht 0
  have q1 : win5_3.index t (1 : Fin 2) = 0 := congrFun ht 1
  refine ⟨t, flush5_3 t, ?_⟩
  rw [mem_blk3]
  intro a
  match a with
  | ⟨0, _⟩ => show win5_3.index t (0 : Fin 2) * 5000 ≤ (i 0).val ∧ (i 0).val < win5_3.index t (0 : Fin 2) * 5000 + 5000; omega
  | ⟨1, _⟩ => show win5_3.index t (1 : Fin 2) * 64 ≤ (i 1).val ∧ (i 1).val < win5_3.index t (1 : Fin 2) * 64 + 64; omega
theorem cover4 (i : S50000x64.Idx) : ∃ t : Fin cfg5.N, (cfg5.win 4).flush t = true ∧ i ∈ ((cfg5.win 4).blk t).view.set := by
  have hi0 : (i 0).val < 50000 := (i 0).isLt
  have hi1 : (i 1).val < 64 := (i 1).isLt
  obtain ⟨t, ht⟩ := idx_onto4 ⟨(i 0).val / 5000, by omega⟩
  have q0 : win5_4.index t (0 : Fin 2) = (i 0).val / 5000 := congrFun ht 0
  have q1 : win5_4.index t (1 : Fin 2) = 0 := congrFun ht 1
  refine ⟨t, flush5_4 t, ?_⟩
  rw [mem_blk4]
  intro a
  match a with
  | ⟨0, _⟩ => show win5_4.index t (0 : Fin 2) * 5000 ≤ (i 0).val ∧ (i 0).val < win5_4.index t (0 : Fin 2) * 5000 + 5000; omega
  | ⟨1, _⟩ => show win5_4.index t (1 : Fin 2) * 64 ≤ (i 1).val ∧ (i 1).val < win5_4.index t (1 : Fin 2) * 64 + 64; omega

/-- THE OUTPUT ARRAYS after the region. -/
theorem out3_eq (c : Dev nD) : (dat5 V c).arrAt 3 cfg5.N = normalized (V c main_v57) (V c main_v14) :=
  (dat5 V c).arrAt_eq_of_cover 3 _ (fun t _ => flushed3_eq V c t) cover3
theorem out4_eq (c : Dev nD) : (dat5 V c).arrAt 4 cfg5.N = accumulated (V c main_v57) (V c main_v14) (V c main_v46_1) :=
  (dat5 V c).arrAt_eq_of_cover 4 _ (fun t _ => flushed4_eq V c t) cover4

end Cert.KernelIdeal.Node5

end
-- ==== Proof.MeanRegion6.lean ====
/-
  Region 6 (the closing average), read as ONE array.

  The region walks the 50 000 node rows in 5 blocks of 10 000 rows; at a block it loads the block of the running sum acc
  and stores acc[v,d] times the splat word of 0.25 over the same rows of the output. Row v of block t is row 10000·t + v
  of both arrays, so every block is the restriction of `Arrays.quartered acc`, and the 5 blocks tile the output. Stated
  for any contents `V` at the region's entry and any float instance.
-/
import proofs.«175120_j9380208574850_1_alg».proof.Proof.Gen.KernelIdeal.Frame
import proofs.«175120_j9380208574850_1_alg».proof.Proof.Arrays
import Idealize.ShloMosaic.Lib.Pipeline.Value

set_option maxRecDepth 16384

noncomputable section

namespace Cert.KernelIdeal.Mean6

open Idealize.ShloMosaic Idealize.ShloMosaic.TcCoe Idealize.SL.Sem
open Cert.KernelIdeal Cert.KernelIdeal.Gen Cert.KernelIdeal.Arrays
open Idealize.ShloMosaic.Pipeline (Dat)

variable {F : FTy → Type} [FloatOps F]
variable (V : (c : Dev nD) → (b : Ref sig .tc) → Buf (Elt F) ((c : Thread nD τ).loc b))

theorem hz : (![0, 0] : Fin 2 → Nat) = fun _ => 0 := funext fun a => by fin_cases a <;> rfl

/-- The stored value at an entry of the block: the entry times the word of 0.25 (the shape cast is the identity, the
    splat is constant). -/
theorem pay_eq (x0 : Vec F S10000x64 .f32) :
    k6_pay1 x0 = fun j => FloatOps.mulf (x0 j) (FloatOps.ofBits .f32 0x3E800000#32) := by
  funext j
  unfold k6_pay1
  show FloatOps.mulf (shapeCast S10000x64 x0 shapeCasts_S10000x64_S10000x64 j) (FloatOps.ofBits .f32 0x3E800000#32) = _
  rw [shapeCast_self]

/-- The block index maps over the 5 grid points: both windows move together along the rows, at 0 along the columns. -/
theorem idx_facts : ∀ t : Fin cfg6.N, win6_0.index t (0 : Fin 2) = win6_1.index t (0 : Fin 2)
    ∧ win6_0.index t (1 : Fin 2) = 0 ∧ win6_1.index t (1 : Fin 2) = 0
    ∧ win6_1.index t (0 : Fin 2) ≤ 4 :=
  (by decide +kernel : ∀ t : Fin grid6.N, _)

/-- Every one of the 5 row blocks is some grid point's. -/
theorem idx_onto : ∀ q0 : Fin 5, ∃ t : Fin cfg6.N, win6_1.index t = ![q0.val, 0] :=
  (by decide +kernel : ∀ q0 : Fin 5, ∃ t : Fin grid6.N, win6_1.index t = ![q0.val, 0])

/-- What grid point t writes back is block t of `quartered` of the input array. -/
theorem flushed_eq (c : Dev nD) (t : Fin cfg6.N) :
    (dat6 V c).flushed 1 t = ((cfg6.win 1).blk t).view.read (Elt F) (quartered (V c main_v58_1)) := by
  show (cfg6.win 1).cut (grid6.coords t) ((dat6 V c).after 1 t) = _
  rw [after6_1]
  unfold out6_1
  rw [View.canon_unit_zero hz]
  simp only [View.ld_unit_zero (S := S10000x64) hz]
  rw [pay_eq]
  obtain ⟨e0, e1, e2, e3⟩ := idx_facts t
  funext j
  show FloatOps.mulf (V c main_v58_1 (((cfg6.win 0).blk t).view.emb j)) (FloatOps.ofBits .f32 0x3E800000#32)
    = FloatOps.mulf (V c main_v58_1 (((cfg6.win 1).blk t).view.emb j)) (FloatOps.ofBits .f32 0x3E800000#32)
  have h0 : ((cfg6.win 0).blk t).view.emb j = ((cfg6.win 1).blk t).view.emb j := by
    funext a; apply Fin.ext
    match a with
    | ⟨0, _⟩ => show win6_0.index t (0 : Fin 2) * 10000 + 1 * (j 0).val = win6_1.index t (0 : Fin 2) * 10000 + 1 * (j 0).val; omega
    | ⟨1, _⟩ => show win6_0.index t (1 : Fin 2) * 64 + 1 * (j 1).val = win6_1.index t (1 : Fin 2) * 64 + 1 * (j 1).val; omega
  rw [h0]

/-- An index of the output array is in point t's block iff each coordinate is in the block's range on its axis. -/
theorem mem_blk (t : Fin cfg6.N) (i : S50000x64.Idx) :
    i ∈ ((cfg6.win 1).blk t).view.set ↔ ∀ a : Fin 2, win6_1.index t a * S10000x64.size a ≤ (i a).val ∧ (i a).val < win6_1.index t a * S10000x64.size a + S10000x64.size a := by
  show i ∈ ((View.whole main_v59).slice (win6_1.rect t)).set ↔ _
  rw [View.set_slice_whole, Rect.mem_set_unit]
  exact Iff.rfl

/-- Row v lies in the block of point v / 10000: the blocks tile the output. -/
theorem cover (i : S50000x64.Idx) : ∃ t : Fin cfg6.N, (cfg6.win 1).flush t = true ∧ i ∈ ((cfg6.win 1).blk t).view.set := by
  have hi0 : (i 0).val < 50000 := (i 0).isLt
  have hi1 : (i 1).val < 64 := (i 1).isLt
  obtain ⟨t, ht⟩ := idx_onto ⟨(i 0).val / 10000, by omega⟩
  have q0 : win6_1.index t (0 : Fin 2) = (i 0).val / 10000 := congrFun ht 0
  have q1 : win6_1.index t (1 : Fin 2) = 0 := congrFun ht 1
  refine ⟨t, flush6_1 t, ?_⟩
  rw [mem_blk]
  intro a
  match a with
  | ⟨0, _⟩ => show win6_1.index t (0 : Fin 2) * 10000 ≤ (i 0).val ∧ (i 0).val < win6_1.index t (0 : Fin 2) * 10000 + 10000; omega
  | ⟨1, _⟩ => show win6_1.index t (1 : Fin 2) * 64 ≤ (i 1).val ∧ (i 1).val < win6_1.index t (1 : Fin 2) * 64 + 64; omega

/-- THE OUTPUT ARRAY after the region: `quartered` of the running sum as the region found it. -/
theorem out_eq (c : Dev nD) : (dat6 V c).arrAt 1 cfg6.N = quartered (V c main_v58_1) :=
  (dat6 V c).arrAt_eq_of_cover 1 _ (fun t _ => flushed_eq V c t) cover

end Cert.KernelIdeal.Mean6

end
-- ==== Proof.Layer3.lean ====
/-
  The third propagation layer and the closing average of the idealized kernel, read against the reference's stages.

  Gather of the second embedding's rows at the columns, region 4 (messages), scatter-add, region 5 (the third embedding
  added to the running sum of the table and the first two), and region 6, which multiplies the running sum by the word
  of 0.25 where the reference divides it by the word of 4.0: the result buffer at the last boundary is the reference's
  result stage of the two arguments.
-/
import proofs.«175120_j9380208574850_1_alg».proof.Proof.Gen.KernelIdeal.Frame
import proofs.«175120_j9380208574850_1_alg».proof.Proof.Arrays
import proofs.«175120_j9380208574850_1_alg».proof.Proof.RefRead
import proofs.«175120_j9380208574850_1_alg».proof.Proof.Bridge
import proofs.«175120_j9380208574850_1_alg».proof.Proof.Prologue
import proofs.«175120_j9380208574850_1_alg».proof.Proof.Layer1
import proofs.«175120_j9380208574850_1_alg».proof.Proof.Layer2
import proofs.«175120_j9380208574850_1_alg».proof.Proof.EdgeRegion4
import proofs.«175120_j9380208574850_1_alg».proof.Proof.NodeRegion5
import proofs.«175120_j9380208574850_1_alg».proof.Proof.MeanRegion6
import Idealize.ShloMosaic.PureOps.Ideal
import Idealize.ShloMosaic.PureOps.Ideal.Laws
import Idealize.ShloMosaic.Lib.StableHlo.Run

set_option maxRecDepth 16384

noncomputable section

namespace Cert.KernelIdeal.Layer3

open Idealize.ShloMosaic Idealize.ShloMosaic.TcCoe Idealize.ShloMosaic.Tactic Idealize.SL.Sem
open Cert.KernelIdeal Cert.KernelIdeal.Gen Cert.KernelIdeal.Arrays
open Cert.ReferenceIdeal.Read
open Cert.KernelIdeal.Prologue Cert.KernelIdeal.Layer1 Cert.KernelIdeal.Layer2

variable (m : (ℓ : Loc nD τ sig) → Buf (Elt Ideal) ℓ) (ρ : Dev nD → PrngReg) (c : Dev nD)

/-! ## The gather -/

theorem rows11 : W11 m ρ c (Proc.devRef .tc main_v1) = val_main_v1 (F := Ideal) (edges m c) := by
  refine (?_ : W11 m ρ c (Proc.devRef .tc main_v1) = W10 m ρ c (Proc.devRef .tc main_v1)).trans (rows10 m ρ c)
  host_keeps hostOps4

theorem factorCol11 : W11 m ρ c (Proc.devRef .tc main_v14) = val_main_v51 (F := Ideal) (edges m c) := by
  refine (?_ : W11 m ρ c (Proc.devRef .tc main_v14) = W10 m ρ c (Proc.devRef .tc main_v14)).trans (factorCol10 m ρ c)
  host_keeps hostOps4

theorem edgeFactor11 : W11 m ρ c (Proc.devRef .tc main_v22) = val_main_v38 (F := Ideal) (edges m c) := by
  refine (?_ : W11 m ρ c (Proc.devRef .tc main_v22) = W10 m ρ c (Proc.devRef .tc main_v22)).trans (edgeFactor10 m ρ c)
  host_keeps hostOps4

theorem running2_11 : W11 m ρ c (Proc.devRef .tc main_v46_1) = val_main_v78 (F := Ideal) (edges m c) (table m c) := by
  refine (?_ : W11 m ρ c (Proc.devRef .tc main_v46_1) = W10 m ρ c (Proc.devRef .tc main_v46_1)).trans (running2_10 m ρ c)
  host_keeps hostOps4

theorem gathered11 : W11 m ρ c (Proc.devRef .tc main_v53) = val_main_v93 (F := Ideal) (edges m c) (table m c) := by
  have h3 := cols10 m ρ c
  have hx := embedding10 m ρ c
  show StableHlo.after hostOps4 (W10 m ρ c) (Proc.devRef .tc main_v53) = _
  generalize W10 m ρ c = V at h3 hx ⊢
  after_results
  rw [h3, hx]
  rfl

/-! ## Region 4: the messages -/

theorem rows12 : W12 m ρ c (Proc.devRef .tc main_v1) = val_main_v1 (F := Ideal) (edges m c) :=
  (W12_of_ne m ρ c main_v1 (by decide)).trans (rows11 m ρ c)

theorem factorCol12 : W12 m ρ c (Proc.devRef .tc main_v14) = val_main_v51 (F := Ideal) (edges m c) :=
  (W12_of_ne m ρ c main_v14 (by decide)).trans (factorCol11 m ρ c)

theorem running2_12 : W12 m ρ c (Proc.devRef .tc main_v46_1) = val_main_v78 (F := Ideal) (edges m c) (table m c) :=
  (W12_of_ne m ρ c main_v46_1 (by decide)).trans (running2_11 m ρ c)

theorem messages12 : W12 m ρ c (Proc.devRef .tc main_v54) = val_main_v95 (F := Ideal) (edges m c) (table m c) := by
  refine (W12_arr m ρ c 2).trans ((Edge4.out_eq (V11 m ρ) c).trans ?_)
  exact (congrArg₂ (scaled (F := Ideal)) (gathered11 m ρ c)
    ((edgeFactor11 m ρ c).trans (edgeFactor_layer3 _).symm)).trans (Bridge.scaled_eq _ _)

/-! ## The scatter-add -/

theorem factorCol13 : W13 m ρ c (Proc.devRef .tc main_v14) = val_main_v51 (F := Ideal) (edges m c) := by
  refine (?_ : W13 m ρ c (Proc.devRef .tc main_v14) = W12 m ρ c (Proc.devRef .tc main_v14)).trans (factorCol12 m ρ c)
  host_keeps hostOps5

theorem running2_13 : W13 m ρ c (Proc.devRef .tc main_v46_1) = val_main_v78 (F := Ideal) (edges m c) (table m c) := by
  refine (?_ : W13 m ρ c (Proc.devRef .tc main_v46_1) = W12 m ρ c (Proc.devRef .tc main_v46_1)).trans (running2_12 m ρ c)
  host_keeps hostOps5

theorem summed13 : W13 m ρ c (Proc.devRef .tc main_v57) = val_main_v98 (F := Ideal) (edges m c) (table m c) := by
  have h1 := rows12 m ρ c
  have hm := messages12 m ρ c
  show StableHlo.after hostOps5 (W12 m ρ c) (Proc.devRef .tc main_v57) = _
  generalize W12 m ρ c = V at h1 hm ⊢
  after_results
  rw [h1, hm]
  rfl

/-! ## Region 5: the running sum of the table and the three embeddings -/

theorem running3_14 : W14 m ρ c (Proc.devRef .tc main_v58_1) = val_main_v102 (F := Ideal) (edges m c) (table m c) := by
  refine (W14_arr m ρ c 4).trans ((Node5.out4_eq (V13 m ρ) c).trans ?_)
  exact (congr (congrArg₂ (accumulated (F := Ideal)) (summed13 m ρ c)
    ((factorCol13 m ρ c).trans (factorCol_layer3 _).symm)) (running2_13 m ρ c)).trans (Bridge.accumulated_eq _ _ _)

/-! ## Region 6: the average -/

/-- THE RESULT: at the last boundary the result buffer holds the reference's result stage of the edge list and the
    embedding table as launched. -/
theorem result15 : W15 m ρ c (Proc.devRef .tc main_v59) = val_main_v104 (F := Ideal) (edges m c) (table m c) := by
  refine (W15_arr m ρ c 1).trans ((Mean6.out_eq (V14 m ρ) c).trans ?_)
  exact (congrArg (quartered (F := Ideal)) (running3_14 m ρ c)).trans (Bridge.quartered_eq _)

end Cert.KernelIdeal.Layer3

end
-- ==== Proof.lean ====
/-
  Three rounds of degree-normalised neighbour averaging over a graph (50 000 nodes, 1 250 000 edges, 64 features):
  the Pallas kernel against its jnp reference, over the extended reals.

  Both programs take the edge list (a row node and a column node per edge) and an embedding table X₀, and compute, with
  deg[v] the number of edges whose row node is v and s[v] = 1/√max(deg[v], 1) where deg[v] > 0 and 0 elsewhere,
      X_{k+1}[v,d] = ( Σ over the edges e with row e = v of  X_k[col e, d] · s[row e] ) · s[v]        (k = 0, 1, 2)
  and return the average of X₀, X₁, X₂, X₃. The gathers and the scatter-adds are the same host operations in both
  programs; the kernel does the entrywise work in seven regions. The differences, all entrywise:
    * a message is x · s in the kernel and s · x in the reference (commutativity of the product of extended reals);
    * the average is (X₀+X₁+X₂+X₃) · 0.25 in the kernel and (X₀+X₁+X₂+X₃) / 4.0 in the reference — 0.25 is the real 1/4
      exactly, and dividing an extended real by a nonzero real is multiplying by its inverse, infinities included.
  Neither law needs the inputs to be finite, so the precondition is never opened.

  The proof: each region's output array is ONE entrywise function of its input arrays (the blocks of the grid tile
  the output: Proof/EdgeRegion*.lean, NodeRegion*.lean, MeanRegion6.lean over Proof/Arrays.lean); those functions are
  the reference's host terms (Proof/Bridge.lean); so, boundary by boundary through the kernel's @main, every live buffer
  holds the reference's stage of the two arguments (Proof/Prologue.lean, Layer1–3.lean), the result buffer at the end
  holding the reference's result stage; and the kernel's run ends with the result buffer at the last boundary's
  contents (Proof/KernelRun.lean). The reference's own run and its stages are Proof/RefRun.lean and RefRead.lean.
  The idealization rewrote no operation, so that conjunct is `True`.
-/
import proofs.«175120_j9380208574850_1_alg».proof.Defs
import proofs.«175120_j9380208574850_1_alg».proof.Proof.Gen.Kernel
import proofs.«175120_j9380208574850_1_alg».proof.Proof.Gen.Kernel.Frame
import proofs.«175120_j9380208574850_1_alg».proof.Proof.Gen.KernelIdeal
import proofs.«175120_j9380208574850_1_alg».proof.Proof.Gen.KernelIdeal.Frame
import proofs.«175120_j9380208574850_1_alg».proof.Proof.Gen.ReferenceIdeal
import proofs.«175120_j9380208574850_1_alg».proof.Proof.Gen.Pre_finite_inputs
import proofs.«175120_j9380208574850_1_alg».proof.Proof.RefRun
import proofs.«175120_j9380208574850_1_alg».proof.Proof.RefRead
import proofs.«175120_j9380208574850_1_alg».proof.Proof.KernelRun
import proofs.«175120_j9380208574850_1_alg».proof.Proof.Layer3
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no region: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

/-- Both runs end with their result at the reference's result stage of the kernel's two arguments: the kernel's by the
    chain of boundaries, the reference's by its own run, the arguments agreeing. -/
theorem algebraic : Cert.algebraic_KernelIdeal_ReferenceIdeal := by
  intro m ρ m' ρ' _ hagree
  refine ⟨fun c => Cert.ReferenceIdeal.Read.val_main_v104 (F := Ideal)
      (Cert.KernelIdeal.Prologue.edges m c) (Cert.KernelIdeal.Prologue.table m c), ?_, ?_⟩
  · exact (θ_run Cert.KernelIdeal.defs _ _).mono
      (fun r h c => ⟨(h c).1.trans (Cert.KernelIdeal.Layer3.result15 m ρ c), (h c).2⟩)
      (Cert.KernelIdeal.Result.run (F := Ideal) m ρ)
  · refine (θ_run Cert.ReferenceIdeal.defs _ _).mono (fun r h c => ⟨(h c).1.trans ?_, (h c).2⟩)
      (Cert.ReferenceIdeal.Value.run (F := Ideal) m' ρ')
    refine (Cert.ReferenceIdeal.Read.val_main_v104_eq m' c).trans ?_
    rw [(hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
